-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1x512x1024 : Shape := ⟨3, ![1, 512, 1024]⟩
abbrev S1x2048x1024 : Shape := ⟨3, ![1, 2048, 1024]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 36
  | .vmem => 30
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S8192x1024, .f32⟩
  | .hbm, ⟨20, _⟩ => ⟨S1x1024, .f32⟩
  | .hbm, ⟨21, _⟩ => ⟨S8192x1024, .bf16⟩
  | .hbm, ⟨22, _⟩ => ⟨S4x2048x1024, .bf16⟩
  | .hbm, ⟨23, _⟩ => ⟨S8192x1024, .f32⟩
  | .hbm, ⟨24, _⟩ => ⟨S1x1024, .f32⟩
  | .hbm, ⟨25, _⟩ => ⟨S8192x1024, .bf16⟩
  | .hbm, ⟨26, _⟩ => ⟨S4x2048x1024, .bf16⟩
  | .hbm, ⟨27, _⟩ => ⟨S8192x1024, .f32⟩
  | .hbm, ⟨28, _⟩ => ⟨S1x1024, .f32⟩
  | .hbm, ⟨29, _⟩ => ⟨S8192x1024, .bf16⟩
  | .hbm, ⟨30, _⟩ => ⟨S4x2048x1024, .bf16⟩
  | .hbm, ⟨31, _⟩ => ⟨S4x2048x1024, .bf16⟩
  | .hbm, ⟨32, _⟩ => ⟨S8192x1024, .bf16⟩
  | .hbm, ⟨33, _⟩ => ⟨S1x1024, .f32⟩
  | .hbm, ⟨34, _⟩ => ⟨S8192x1024, .f32⟩
  | .hbm, ⟨35, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1x1024, .f32⟩
  | .local _ .vmem, ⟨28, _⟩ => ⟨S1024x1024, .f32⟩
  | .local _ .vmem, ⟨29, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x2048x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 2 → Memref sig .tc .vmem S1x512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  transposes_S1024x1024_S1024x1024_1_0 : S1024x1024.Transposes [1, 0] S1024x1024
  bitsLt_bf16_f32 : FTy.bits .bf16 < FTy.bits .f32
  shapeCasts_S4x2048x1024_S8192x1024 : S4x2048x1024.ShapeCasts S8192x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x512x1024_S1x512x64_0_0_0 : ∀ a, (![0, 0, 0] : Fin 3 → Nat) a + S1x512x64.size a ≤ S1x512x1024.size a
  h_S1x512x64 : 0 < S1x512x64.numel
  shapeCasts_S1x512x64_S512x64 : S1x512x64.ShapeCasts S512x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  packedbf16_S1x512x1024_S1x512x64_0_0_0 : (Rect.unit (s := S1x512x1024) ![0, 0, 0] S1x512x64.size inb_S1x512x1024_S1x512x64_0_0_0).PackedRows (EltTy.packing .bf16)
  inb_S1x512x1024_S1x512x64_0_0_64 : ∀ a, (![0, 0, 64] : Fin 3 → Nat) a + S1x512x64.size a ≤ S1x512x1024.size a
  inb_S1x2048x1024_S1x2048x64_0_0_64 : ∀ a, (![0, 0, 64] : Fin 3 → Nat) a + S1x2048x64.size a ≤ S1x2048x1024.size a
  packedbf16_S1x512x1024_S1x512x64_0_0_64 : (Rect.unit (s := S1x512x1024) ![0, 0, 64] S1x512x64.size inb_S1x512x1024_S1x512x64_0_0_64).PackedRows (EltTy.packing .bf16)
  inb_S1x512x1024_S1x512x64_0_0_128 : ∀ a, (![0, 0, 128] : Fin 3 → Nat) a + S1x512x64.size a ≤ S1x512x1024.size a
  inb_S1x2048x1024_S1x2048x64_0_0_128 : ∀ a, (![0, 0, 128] : Fin 3 → Nat) a + S1x2048x64.size a ≤ S1x2048x1024.size a
  packedbf16_S1x512x1024_S1x512x64_0_0_128 : (Rect.unit (s := S1x512x1024) ![0, 0, 128] S1x512x64.size inb_S1x512x1024_S1x512x64_0_0_128).PackedRows (EltTy.packing .bf16)
  inb_S1x512x1024_S1x512x64_0_0_192 : ∀ a, (![0, 0, 192] : Fin 3 → Nat) a + S1x512x64.size a ≤ S1x512x1024.size a
  inb_S1x2048x1024_S1x2048x64_0_0_192 : ∀ a, (![0, 0, 192] : Fin 3 → Nat) a + S1x2048x64.size a ≤ S1x2048x1024.size a
  packedbf16_S1x512x1024_S1x512x64_0_0_192 : (Rect.unit (s := S1x512x1024) ![0, 0, 192] S1x512x64.size inb_S1x512x1024_S1x512x64_0_0_192).PackedRows (EltTy.packing .bf16)
  inb_S1x512x1024_S1x512x64_0_0_256 : ∀ a, (![0, 0, 256] : Fin 3 → Nat) a + S1x512x64.size a ≤ S1x512x1024.size a
  inb_S1x2048x1024_S1x2048x64_0_0_256 : ∀ a, (![0, 0, 256] : Fin 3 → Nat) a + S1x2048x64.size a ≤ S1x2048x1024.size a
  packedbf16_S1x512x1024_S1x512x64_0_0_256 : (Rect.unit (s := S1x512x1024) ![0, 0, 256] S1x512x64.size inb_S1x512x1024_S1x512x64_0_0_256).PackedRows (EltTy.packing .bf16)
  inb_S1x512x1024_S1x512x64_0_0_320 : ∀ a, (![0, 0, 320] : Fin 3 → Nat) a + S1x512x64.size a ≤ S1x512x1024.size a
  inb_S1x2048x1024_S1x2048x64_0_0_320 : ∀ a, (![0, 0, 320] : Fin 3 → Nat) a + S1x2048x64.size a ≤ S1x2048x1024.size a
  packedbf16_S1x512x1024_S1x512x64_0_0_320 : (Rect.unit (s := S1x512x1024) ![0, 0, 320] S1x512x64.size inb_S1x512x1024_S1x512x64_0_0_320).PackedRows (EltTy.packing .bf16)
  inb_S1x512x1024_S1x512x64_0_0_384 : ∀ a, (![0, 0, 384] : Fin 3 → Nat) a + S1x512x64.size a ≤ S1x512x1024.size a
  inb_S1x2048x1024_S1x2048x64_0_0_384 : ∀ a, (![0, 0, 384] : Fin 3 → Nat) a + S1x2048x64.size a ≤ S1x2048x1024.size a
  packedbf16_S1x512x1024_S1x512x64_0_0_384 : (Rect.unit (s := S1x512x1024) ![0, 0, 384] S1x512x64.size inb_S1x512x1024_S1x512x64_0_0_384).PackedRows (EltTy.packing .bf16)
  inb_S1x512x1024_S1x512x64_0_0_448 : ∀ a, (![0, 0, 448] : Fin 3 → Nat) a + S1x512x64.size a ≤ S1x512x1024.size a
  inb_S1x2048x1024_S1x2048x64_0_0_448 : ∀ a, (![0, 0, 448] : Fin 3 → Nat) a + S1x2048x64.size a ≤ S1x2048x1024.size a
  packedbf16_S1x512x1024_S1x512x64_0_0_448 : (Rect.unit (s := S1x512x1024) ![0, 0, 448] S1x512x64.size inb_S1x512x1024_S1x512x64_0_0_448).PackedRows (EltTy.packing .bf16)
  inb_S1x512x1024_S1x512x64_0_0_512 : ∀ a, (![0, 0, 512] : Fin 3 → Nat) a + S1x512x64.size a ≤ S1x512x1024.size a
  inb_S1x2048x1024_S1x2048x64_0_0_512 : ∀ a, (![0, 0, 512] : Fin 3 → Nat) a + S1x2048x64.size a ≤ S1x2048x1024.size a
  packedbf16_S1x512x1024_S1x512x64_0_0_512 : (Rect.unit (s := S1x512x1024) ![0, 0, 512] S1x512x64.size inb_S1x512x1024_S1x512x64_0_0_512).PackedRows (EltTy.packing .bf16)
  inb_S1x512x1024_S1x512x64_0_0_576 : ∀ a, (![0, 0, 576] : Fin 3 → Nat) a + S1x512x64.size a ≤ S1x512x1024.size a
  inb_S1x2048x1024_S1x2048x64_0_0_576 : ∀ a, (![0, 0, 576] : Fin 3 → Nat) a + S1x2048x64.size a ≤ S1x2048x1024.size a
  packedbf16_S1x512x1024_S1x512x64_0_0_576 : (Rect.unit (s := S1x512x1024) ![0, 0, 576] S1x512x64.size inb_S1x512x1024_S1x512x64_0_0_576).PackedRows (EltTy.packing .bf16)
  inb_S1x512x1024_S1x512x64_0_0_640 : ∀ a, (![0, 0, 640] : Fin 3 → Nat) a + S1x512x64.size a ≤ S1x512x1024.size a
  inb_S1x2048x1024_S1x2048x64_0_0_640 : ∀ a, (![0, 0, 640] : Fin 3 → Nat) a + S1x2048x64.size a ≤ S1x2048x1024.size a
  packedbf16_S1x512x1024_S1x512x64_0_0_640 : (Rect.unit (s := S1x512x1024) ![0, 0, 640] S1x512x64.size inb_S1x512x1024_S1x512x64_0_0_640).PackedRows (EltTy.packing .bf16)
  inb_S1x512x1024_S1x512x64_0_0_704 : ∀ a, (![0, 0, 704] : Fin 3 → Nat) a + S1x512x64.size a ≤ S1x512x1024.size a
  inb_S1x2048x1024_S1x2048x64_0_0_704 : ∀ a, (![0, 0, 704] : Fin 3 → Nat) a + S1x2048x64.size a ≤ S1x2048x1024.size a
  packedbf16_S1x512x1024_S1x512x64_0_0_704 : (Rect.unit (s := S1x512x1024) ![0, 0, 704] S1x512x64.size inb_S1x512x1024_S1x512x64_0_0_704).PackedRows (EltTy.packing .bf16)
  inb_S1x512x1024_S1x512x64_0_0_768 : ∀ a, (![0, 0, 768] : Fin 3 → Nat) a + S1x512x64.size a ≤ S1x512x1024.size a
  inb_S1x2048x1024_S1x2048x64_0_0_768 : ∀ a, (![0, 0, 768] : Fin 3 → Nat) a + S1x2048x64.size a ≤ S1x2048x1024.size a
  packedbf16_S1x512x1024_S1x512x64_0_0_768 : (Rect.unit (s := S1x512x1024) ![0, 0, 768] S1x512x64.size inb_S1x512x1024_S1x512x64_0_0_768).PackedRows (EltTy.packing .bf16)
  inb_S1x512x1024_S1x512x64_0_0_832 : ∀ a, (![0, 0, 832] : Fin 3 → Nat) a + S1x512x64.size a ≤ S1x512x1024.size a
  inb_S1x2048x1024_S1x2048x64_0_0_832 : ∀ a, (![0, 0, 832] : Fin 3 → Nat) a + S1x2048x64.size a ≤ S1x2048x1024.size a
  packedbf16_S1x512x1024_S1x512x64_0_0_832 : (Rect.unit (s := S1x512x1024) ![0, 0, 832] S1x512x64.size inb_S1x512x1024_S1x512x64_0_0_832).PackedRows (EltTy.packing .bf16)
  inb_S1x512x1024_S1x512x64_0_0_896 : ∀ a, (![0, 0, 896] : Fin 3 → Nat) a + S1x512x64.size a ≤ S1x512x1024.size a
  inb_S1x2048x1024_S1x2048x64_0_0_896 : ∀ a, (![0, 0, 896] : Fin 3 → Nat) a + S1x2048x64.size a ≤ S1x2048x1024.size a
  packedbf16_S1x512x1024_S1x512x64_0_0_896 : (Rect.unit (s := S1x512x1024) ![0, 0, 896] S1x512x64.size inb_S1x512x1024_S1x512x64_0_0_896).PackedRows (EltTy.packing .bf16)
  inb_S1x512x1024_S1x512x64_0_0_960 : ∀ a, (![0, 0, 960] : Fin 3 → Nat) a + S1x512x64.size a ≤ S1x512x1024.size a
  inb_S1x2048x1024_S1x2048x64_0_0_960 : ∀ a, (![0, 0, 960] : Fin 3 → Nat) a + S1x2048x64.size a ≤ S1x2048x1024.size a
  packedbf16_S1x512x1024_S1x512x64_0_0_960 : (Rect.unit (s := S1x512x1024) ![0, 0, 960] S1x512x64.size inb_S1x512x1024_S1x512x64_0_0_960).PackedRows (EltTy.packing .bf16)
  dot_S1024x1024_S1024x1024_S1024x1024_1_0_0_1_n_n_wf : DotDims.WF S1024x1024 S1024x1024 S1024x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S4x2048x1024.size a
  hwx3_0 : ∀ i : grid3.Coords, EltTy.bits .bf16 = 32 ∨ (Rect.block (s := S4x2048x1024) S1x512x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S4x2048x1024.size a
  hwx3_1 : ∀ i : grid3.Coords, EltTy.bits .bf16 = 32 ∨ (Rect.block (s := S4x2048x1024) S1x2048x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S4x2048x1024.size a
  hwx3_2 : ∀ i : grid3.Coords, EltTy.bits .bf16 = 32 ∨ (Rect.block (s := S4x2048x1024) S1x2048x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x1024.size a ≤ S4x2048x1024.size a
  hwx3_3 : ∀ i : grid3.Coords, EltTy.bits .bf16 = 32 ∨ (Rect.block (s := S4x2048x1024) S1x512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S8192x1024.size a
  hwx4_3 : ∀ i : grid4.Coords, EltTy.bits .f32 = 32 ∨ (Rect.block (s := S8192x1024) S1024x1024.size (cc4_transform_3 i) (hinb4_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1x2048x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x2048x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1x512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v21) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v22) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S_, .f32⟩
  | .hbm, ⟨37, _⟩ => ⟨S4x16x2048, .f32⟩
  | .hbm, ⟨38, _⟩ => ⟨S_, .f32⟩
  | .hbm, ⟨39, _⟩ => ⟨S4x16x2048, .f32⟩
  | .hbm, ⟨40, _⟩ => ⟨S4x16x2048, .f32⟩
  | .hbm, ⟨41, _⟩ => ⟨S4x16x2048x1, .f32⟩
  | .hbm, ⟨42, _⟩ => ⟨S4x16x2048x2048, .f32⟩
  | .hbm, ⟨43, _⟩ => ⟨S4x16x2048x2048, .f32⟩
  | .hbm, ⟨44, _⟩ => ⟨S4x16x2048x2048, .f32⟩
  | .hbm, ⟨45, _⟩ => ⟨S_, .f32⟩
  | .hbm, ⟨46, _⟩ => ⟨S4x16x2048, .f32⟩
  | .hbm, ⟨47, _⟩ => ⟨S4x16x2048x1, .f32⟩
  | .hbm, ⟨48, _⟩ => ⟨S4x16x2048x2048, .f32⟩
  | .hbm, ⟨49, _⟩ => ⟨S4x16x2048x2048, .f32⟩
  | .hbm, ⟨50, _⟩ => ⟨S4x16x2048x64, .f32⟩
  | .hbm, ⟨51, _⟩ => ⟨S4x2048x16x64, .f32⟩
  | .hbm, ⟨52, _⟩ => ⟨S4x2048x1024, .f32⟩
  | .hbm, ⟨53, _⟩ => ⟨S4x2048x1024, .f32⟩
  | .hbm, ⟨54, _⟩ => ⟨S1x1x1024, .f32⟩
  | .hbm, ⟨55, _⟩ => ⟨S4x2048x1024, .f32⟩
  | .hbm, ⟨56, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KRun.lean ====
/-
  The kernel program's run with its result named.

  Every weakly fair execution of the five-region program from a launch memory `m` terminates without a fault; the
  result buffer then holds what the fold of the program's segments leaves there — the host stretches' operations and
  the five regions' write-backs applied in order to the launch memory, read at the result's reference — and the
  eleven argument arrays are as launched.
-/
import proofs.«146961_j83382495084952_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run: it terminates, nothing faults, the result buffer ends at the segments' fold of the launch
    memory read at the result's reference, and every argument array ends as launched. -/
theorem run : θ_run defs (onTc (τ := τ) (main (F := F))) ⟨m, fun _ => 0, ρ⟩ (fun r => ∀ c : Dev nD,
      r.2.mem ((c.tc : Thread nD τ).loc main_v24) = W11 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v24 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.KRun

end
-- ==== Proof.Spec.lean ====
/-
  The function both programs compute, index by index, on the extended reals.

  A linear layer `x · Wᵀ + b` over the last axis; scaled dot-product attention over sixteen heads of sixty-four
  columns each, the softmax of a row taken as `exp (L t - M) / ∑ u, exp (L u - M)` with `M` the row's maximum folded
  from the float pattern of `-∞`; and their composition: three projections, attention, the output projection.
  The same linear layer on rows already flattened to a matrix, against a weight matrix already transposed and a
  bias already laid as one row, is stated beside it.
-/
import Idealize.ShloMosaic.Lib.ValueIdx
import Idealize.ShloMosaic.PureOps.Ideal

noncomputable section

namespace Cert.Spec

open Idealize.ShloMosaic Idealize.ShloMosaic.ValueIdx

/-- Activations `[4, 2048, 1024]`, square weights `[1024, 1024]`, a bias `[1024]`. -/
abbrev Act := (⟨3, ![4, 2048, 1024]⟩ : Shape).Idx → EReal
abbrev Mat := (⟨2, ![1024, 1024]⟩ : Shape).Idx → EReal
abbrev Bias := (⟨1, ![1024]⟩ : Shape).Idx → EReal
/-- The activations with batch and position merged into rows, and a bias laid as one row. -/
abbrev Rows := (⟨2, ![8192, 1024]⟩ : Shape).Idx → EReal
abbrev BiasRow := (⟨2, ![1, 1024]⟩ : Shape).Idx → EReal

/-- One entry of the linear layer: `∑ k, x[b, s, k] · W[e, k] + bias[e]`. -/
def projAt (x : Act) (W : Mat) (bias : Bias) (b : Fin 4) (s : Fin 2048) (e : Fin 1024) : EReal :=
  (∑ k : Fin 1024, x (ix3 b s k) * W (ix2 e k)) + bias (ix1 e)

/-- The linear layer `x · Wᵀ + bias`. -/
def proj (x : Act) (W : Mat) (bias : Bias) : Act := fun i => projAt x W bias (i 0) (i 1) (i 2)

/-- One entry of the linear layer on flattened rows, the weights already transposed: `∑ k, X[r, k] · Wt[k, e] + B[0, e]`. -/
def denseAt (X : Rows) (Wt : Mat) (B : BiasRow) (r : Fin 8192) (e : Fin 1024) : EReal :=
  (∑ k : Fin 1024, X (ix2 r k) * Wt (ix2 k e)) + B (ix2 (0 : Fin 1) e)

/-- The linear layer on flattened rows. -/
def dense (X : Rows) (Wt : Mat) (B : BiasRow) : Rows := fun j => denseAt X Wt B (j 0) (j 1)

/-- Column `d` of head `h` among the 1024 model columns. -/
def col (h : Fin 16) (d : Fin 64) : Fin 1024 := ⟨h.val * 64 + d.val, by omega⟩

/-- The head a model column belongs to. -/
def headOf (c : Fin 1024) : Fin 16 := ⟨c.val / 64, by omega⟩

/-- The logit scale as the kernel's float word (one eighth). -/
def scale : EReal := Ideal.ofBits .f32 0x3E000000#32

/-- The float pattern of `-∞`, from which a row's maximum is folded. -/
def negInf : EReal := Ideal.ofBits .f32 0xFF800000#32

/-- The scaled logit of query `s` against key `t` in head `h` of batch `b`. -/
def logit (Q K : Act) (b : Fin 4) (h : Fin 16) (s t : Fin 2048) : EReal :=
  (∑ k : Fin 64, Q (ix3 b s (col h k)) * K (ix3 b t (col h k))) * scale

/-- A row's maximum, folded from `-∞`. -/
def rowMax (L : Fin 2048 → EReal) : EReal := (Finset.univ : Finset (Fin 2048)).fold max negInf L

/-- The softmax of a row of logits at `t`. -/
def softmaxRow (L : Fin 2048 → EReal) (t : Fin 2048) : EReal :=
  Ideal.div (Ideal.exp (L t - rowMax L)) (∑ u : Fin 2048, Ideal.exp (L u - rowMax L))

/-- One entry of attention: the softmax weights of query `s` in the head of column `c`, against the values' column `c`. -/
def attnAt (Q K V : Act) (b : Fin 4) (s : Fin 2048) (c : Fin 1024) : EReal :=
  ∑ t : Fin 2048, softmaxRow (logit Q K b (headOf c) s) t * V (ix3 b t c)

/-- Multi-head attention on projected queries, keys and values, heads side by side along the last axis. -/
def attn (Q K V : Act) : Act := fun i => attnAt Q K V (i 0) (i 1) (i 2)

/-- The whole layer: three projections, attention, the output projection. -/
def out (q k v : Act) (Wq : Mat) (bq : Bias) (Wk : Mat) (bk : Bias) (Wv : Mat) (bv : Bias) (Wo : Mat) (bo : Bias) : Act :=
  proj (attn (proj q Wq bq) (proj k Wk bk) (proj v Wv bv)) Wo bo

end Cert.Spec

end
-- ==== Proof.LibConcat3.lean ====
/-
  Three arrays laid end to end along one axis, the transpose of a matrix, and the regrouping of the leading two axes of
  a rank-3 array into one axis of rows, each read at an index written by coordinates.

  Along the joined axis a position below the first extent lies in the first piece; a position that is the first extent
  plus an offset below the second extent lies in the second piece at that offset; a position that is the first two
  extents plus an offset lies in the third piece.  A transposed matrix at (j, i) is the matrix at (i, j).  Row
  n * b + s of the regrouped array is row s of plane n, because both orders are row-major.
-/
import Idealize.ShloMosaic.Lib.Pipeline.Value
import Idealize.ShloMosaic.Lib.ValueIdx

namespace Cert.LibConcat3

open Idealize.ShloMosaic Idealize.ShloMosaic.ValueIdx

variable {α : Type}

/-! ## Three vectors end to end -/

/-- Three vectors laid end to end, read at a position below the first extent: the first vector there. -/
theorem concat3_vec_apply_fst {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₀) (hj : j.val = c.val) :
    concatenate ⟨1, ![b]⟩ 0 [⟨⟨1, ![b₀]⟩, x₀⟩, ⟨⟨1, ![b₁]⟩, x₁⟩, ⟨⟨1, ![b₂]⟩, x₂⟩] h (ix1 j) = x₀ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 0 (by simp) _ x₀ rfl rfl 0 rfl (ix1 c)
    (fun d hd => by match d with | ⟨0, _⟩ => exact absurd rfl hd)
    (by show 0 + c.val = j.val; omega)

/-- Three vectors laid end to end, read at the first extent plus an offset: the second vector at the offset. -/
theorem concat3_vec_apply_snd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₁) (hj : j.val = b₀ + c.val) :
    concatenate ⟨1, ![b]⟩ 0 [⟨⟨1, ![b₀]⟩, x₀⟩, ⟨⟨1, ![b₁]⟩, x₁⟩, ⟨⟨1, ![b₂]⟩, x₂⟩] h (ix1 j) = x₁ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 1 (by simp) _ x₁ rfl rfl b₀ (Nat.add_zero b₀) (ix1 c)
    (fun d hd => by match d with | ⟨0, _⟩ => exact absurd rfl hd)
    (by show b₀ + c.val = j.val; omega)

/-- Three vectors laid end to end, read at the first two extents plus an offset: the third vector at the offset. -/
theorem concat3_vec_apply_thd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₂) (hj : j.val = b₀ + b₁ + c.val) :
    concatenate ⟨1, ![b]⟩ 0 [⟨⟨1, ![b₀]⟩, x₀⟩, ⟨⟨1, ![b₁]⟩, x₁⟩, ⟨⟨1, ![b₂]⟩, x₂⟩] h (ix1 j) = x₂ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 2 (by simp) _ x₂ rfl rfl (b₀ + (b₁ + 0)) rfl (ix1 c)
    (fun d hd => by match d with | ⟨0, _⟩ => exact absurd rfl hd)
    (by show b₀ + (b₁ + 0) + c.val = j.val; omega)

/-! ## Three matrices side by side -/

/-- Three matrices of one height laid side by side, read at a column below the first width: the first matrix there. -/
theorem concat3_cols_apply_fst {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₀) (hj : j.val = c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₀ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 0 (by simp) _ x₀ rfl rfl 0 rfl (ix2 r c)
    (fun d hd => by match d with | ⟨0, _⟩ => rfl | ⟨1, _⟩ => exact absurd rfl hd)
    (by show 0 + c.val = j.val; omega)

/-- Three matrices of one height laid side by side, read at the first width plus an offset: the second matrix at the
    offset. -/
theorem concat3_cols_apply_snd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₁) (hj : j.val = b₀ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₁ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 1 (by simp) _ x₁ rfl rfl b₀ (Nat.add_zero b₀) (ix2 r c)
    (fun d hd => by match d with | ⟨0, _⟩ => rfl | ⟨1, _⟩ => exact absurd rfl hd)
    (by show b₀ + c.val = j.val; omega)

/-- Three matrices of one height laid side by side, read at the first two widths plus an offset: the third matrix at
    the offset. -/
theorem concat3_cols_apply_thd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₂) (hj : j.val = b₀ + b₁ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₂ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 2 (by simp) _ x₂ rfl rfl (b₀ + (b₁ + 0)) rfl (ix2 r c)
    (fun d hd => by match d with | ⟨0, _⟩ => rfl | ⟨1, _⟩ => exact absurd rfl hd)
    (by show b₀ + (b₁ + 0) + c.val = j.val; omega)

/-! ## The transpose of a matrix -/

/-- The transpose of an `[a, b]` matrix reads, at (j, i), the matrix at (i, j). -/
theorem transpose_10_apply {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun d => by
    match d with
    | ⟨0, _⟩ => rfl
    | ⟨1, _⟩ => rfl

/-! ## Planes of rows as one run of rows, and back -/

/-- An `[a, b, c]` array regrouped as `[m, c]` reads, at row `n * b + s`, row `s` of plane `n`. -/
theorem shapeCast_planes_rows_apply {a b c m : ℕ} (x : (⟨3, ![a, b, c]⟩ : Shape).Idx → α)
    (h : (⟨3, ![a, b, c]⟩ : Shape).ShapeCasts ⟨2, ![m, c]⟩) (n : Fin a) (s : Fin b) (e : Fin c) (row : Fin m)
    (hrow : row.val = n.val * b + s.val) :
    shapeCast ⟨2, ![m, c]⟩ x h (ix2 row e) = x (ix3 n s e) :=
  shapeCast_apply x h _ _ (by
    rw [Shape.rowMajor_val_three, Shape.rowMajor_val_two]
    show (n.val * b + s.val) * c + e.val = row.val * c + e.val
    rw [hrow])

/-- An `[m, c]` array regrouped as `[a, b, c]` reads, at row `s` of plane `n`, row `n * b + s`. -/
theorem shapeCast_rows_planes_apply {a b c m : ℕ} (y : (⟨2, ![m, c]⟩ : Shape).Idx → α)
    (h : (⟨2, ![m, c]⟩ : Shape).ShapeCasts ⟨3, ![a, b, c]⟩) (n : Fin a) (s : Fin b) (e : Fin c) (row : Fin m)
    (hrow : row.val = n.val * b + s.val) :
    shapeCast ⟨3, ![a, b, c]⟩ y h (ix3 n s e) = y (ix2 row e) :=
  shapeCast_apply y h _ _ (by
    rw [Shape.rowMajor_val_three, Shape.rowMajor_val_two]
    show row.val * c + e.val = (n.val * b + s.val) * c + e.val
    rw [hrow])

end Cert.LibConcat3
-- ==== Proof.ChainAlg.lean ====
/-
  The linear layer through its flattened form.

  Regroup the planes of an activation array `[4, 2048, 1024]` into rows `[8192, 1024]`, apply the linear layer on rows
  with the weight matrix transposed beforehand and the bias laid as one row, and regroup the rows back into planes:
  entry `(n, s, e)` is row `n · 2048 + s`, whose sum over `k` of `x[n, s, k] · Wᵀ[k, e]` is the sum of
  `x[n, s, k] · W[e, k]`; so the result is the linear layer `x · Wᵀ + bias` itself.  Narrowing the float format of the
  transposed weights changes nothing on the extended reals.
-/
import proofs.«146961_j83382495084952_2_alg».proof.Proof.Spec
import proofs.«146961_j83382495084952_2_alg».proof.Proof.LibConcat3
import Idealize.ShloMosaic.Lib.Pipeline.Value
import Idealize.ShloMosaic.Lib.ValueIdx
import Idealize.ShloMosaic.Lib.ValueLayout

noncomputable section

namespace Cert.ChainAlg

open Idealize.ShloMosaic Idealize.ShloMosaic.ValueIdx Cert.Spec

/-- Rows regrouped from planes, through the linear layer on rows against the transposed weights and the bias row,
    regrouped back into planes: the linear layer. -/
theorem dense_regroup (x : Act) (W : Mat) (b : Bias)
    (h1 : (⟨3, ![4, 2048, 1024]⟩ : Shape).ShapeCasts ⟨2, ![8192, 1024]⟩)
    (ht : (⟨2, ![1024, 1024]⟩ : Shape).Transposes [1, 0] ⟨2, ![1024, 1024]⟩)
    (hb : FTy.bf16.bits < FTy.f32.bits)
    (h2 : (⟨1, ![1024]⟩ : Shape).ShapeCasts ⟨2, ![1, 1024]⟩)
    (h3 : (⟨2, ![8192, 1024]⟩ : Shape).ShapeCasts ⟨3, ![4, 2048, 1024]⟩) :
    shapeCast ⟨3, ![4, 2048, 1024]⟩
        (dense (shapeCast ⟨2, ![8192, 1024]⟩ x h1)
          (truncf (F := Ideal) .bf16 (transpose ⟨2, ![1024, 1024]⟩ [1, 0] W ht) hb)
          (shapeCast ⟨2, ![1, 1024]⟩ b h2)) h3
      = proj x W b := by
  funext i
  obtain ⟨n, s, e, rfl⟩ : ∃ (n : Fin 4) (s : Fin 2048) (e : Fin 1024), i = ix3 n s e := ⟨i 0, i 1, i 2, eq_ix3 i⟩
  have hrow : n.val * 2048 + s.val < 8192 := by have := n.isLt; have := s.isLt; omega
  refine (LibConcat3.shapeCast_rows_planes_apply _ h3 n s e ⟨n.val * 2048 + s.val, hrow⟩ rfl).trans ?_
  show denseAt _ _ _ ⟨n.val * 2048 + s.val, hrow⟩ e = projAt x W b n s e
  unfold denseAt projAt
  refine congrArg₂ (· + ·) (Finset.sum_congr rfl fun k _ => ?_) (shapeCast_a_1a_apply b h2 0 e)
  refine congrArg₂ (· * ·) (LibConcat3.shapeCast_planes_rows_apply x h1 n s k ⟨n.val * 2048 + s.val, hrow⟩ rfl) ?_
  exact LibConcat3.transpose_10_apply W ht e k

end Cert.ChainAlg

end
-- ==== Proof.Chain.lean ====
/-
  The kernel program's result as a function of its arguments.

  The program is six stretches of host operations around five kernel launches.  Reading the result buffer back through
  them: the host transposes each weight matrix, regroups each activation array into rows and lays each bias as one row;
  each of the first three launches computes a linear layer on rows, which regrouped into planes is the projection of
  the queries, the keys and the values; the fourth launch computes attention on the three projections; the fifth is the
  linear layer on the regrouped attention output, which regrouped into planes is the whole layer's result.  A buffer
  written early and read late is carried unchanged through every stretch and launch that does not write it.
  What each launch leaves in its output array is taken here as a hypothesis, one per launch.
-/
import proofs.«146961_j83382495084952_2_alg».proof.Proof.Gen.KernelIdeal.Frame
import proofs.«146961_j83382495084952_2_alg».proof.Proof.Spec
import proofs.«146961_j83382495084952_2_alg».proof.Proof.ChainAlg
import Idealize.ShloMosaic.Lib.StableHlo.Run
import Idealize.ShloMosaic.Lib.Pipeline.Value
import Idealize.ShloMosaic.Lib.ValueIdx

set_option maxRecDepth 16384

noncomputable section

namespace Cert.KernelIdeal.Chain

open Idealize.ShloMosaic Idealize.ShloMosaic.TcCoe Idealize.ShloMosaic.Tactic Idealize.ShloMosaic.ValueIdx
open Idealize.SL.Sem
open Cert.KernelIdeal Cert.KernelIdeal.Gen

/-- A stretch of host operations leaves a buffer none of them writes as it was. -/
macro "host_keep " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-- The buffer contents a launch is entered with, as a function of the core and the buffer. -/
abbrev Entry := (c : Dev nD) → (b : Ref sig .tc) → Buf (Elt Ideal) ((c : Thread nD τ).loc b)

variable (m : (ℓ : Loc nD τ sig) → Buf (Elt Ideal) ℓ) (ρ : Dev nD → PrngReg) (c : Dev nD)

/-! ## What the first stretch writes: transposed weights, rows, bias rows -/

theorem v8_at1 : (W1 m ρ c (Proc.devRef .tc main_v8) : S8192x1024.Idx → EReal)
    = (shapeCast S8192x1024 (m ((c : Thread nD τ).loc main_arg0)) shapeCasts_S4x2048x1024_S8192x1024 : S8192x1024.Idx → EReal) := by
  dsimp only [W1, hostOps0]; after_results <;> rfl
theorem v9_at1 : (W1 m ρ c (Proc.devRef .tc main_v9) : S1x1024.Idx → EReal)
    = (shapeCast S1x1024 (m ((c : Thread nD τ).loc main_arg4)) shapeCasts_S1024_S1x1024 : S1x1024.Idx → EReal) := by
  dsimp only [W1, hostOps0]; after_results <;> rfl
theorem v1_at1 : (W1 m ρ c (Proc.devRef .tc main_v1) : S1024x1024.Idx → EReal)
    = (truncf (F := Ideal) .bf16 (transpose S1024x1024 [1, 0] (m ((c : Thread nD τ).loc main_arg3)) transposes_S1024x1024_S1024x1024_1_0) bitsLt_bf16_f32 : S1024x1024.Idx → EReal) := by
  dsimp only [W1, hostOps0]; after_results <;> rfl
theorem v3_at1 : (W1 m ρ c (Proc.devRef .tc main_v3) : S1024x1024.Idx → EReal)
    = (truncf (F := Ideal) .bf16 (transpose S1024x1024 [1, 0] (m ((c : Thread nD τ).loc main_arg5)) transposes_S1024x1024_S1024x1024_1_0) bitsLt_bf16_f32 : S1024x1024.Idx → EReal) := by
  dsimp only [W1, hostOps0]; after_results <;> rfl
theorem v5_at1 : (W1 m ρ c (Proc.devRef .tc main_v5) : S1024x1024.Idx → EReal)
    = (truncf (F := Ideal) .bf16 (transpose S1024x1024 [1, 0] (m ((c : Thread nD τ).loc main_arg7)) transposes_S1024x1024_S1024x1024_1_0) bitsLt_bf16_f32 : S1024x1024.Idx → EReal) := by
  dsimp only [W1, hostOps0]; after_results <;> rfl
theorem v7_at1 : (W1 m ρ c (Proc.devRef .tc main_v7) : S1024x1024.Idx → EReal)
    = (truncf (F := Ideal) .bf16 (transpose S1024x1024 [1, 0] (m ((c : Thread nD τ).loc main_arg9)) transposes_S1024x1024_S1024x1024_1_0) bitsLt_bf16_f32 : S1024x1024.Idx → EReal) := by
  dsimp only [W1, hostOps0]; after_results <;> rfl

/-! ## Buffers carried unchanged to where they are read -/

/-- The transposed key weights reach the second launch as written. -/
theorem v3_keep : W3 m ρ c (Proc.devRef .tc main_v3) = W1 m ρ c (Proc.devRef .tc main_v3) :=
  calc W3 m ρ c (Proc.devRef .tc main_v3)
    _ = W2 m ρ c (Proc.devRef .tc main_v3) := by host_keep hostOps1
    _ = W1 m ρ c (Proc.devRef .tc main_v3) := W2_of_ne m ρ c main_v3 (by decide)
/-- The transposed value weights reach the third launch as written. -/
theorem v5_keep : W5 m ρ c (Proc.devRef .tc main_v5) = W1 m ρ c (Proc.devRef .tc main_v5) :=
  calc W5 m ρ c (Proc.devRef .tc main_v5)
    _ = W4 m ρ c (Proc.devRef .tc main_v5) := by host_keep hostOps2
    _ = W3 m ρ c (Proc.devRef .tc main_v5) := W4_of_ne m ρ c main_v5 (by decide)
    _ = W2 m ρ c (Proc.devRef .tc main_v5) := by host_keep hostOps1
    _ = W1 m ρ c (Proc.devRef .tc main_v5) := W2_of_ne m ρ c main_v5 (by decide)
/-- The transposed output weights reach the fifth launch as written. -/
theorem v7_keep : W9 m ρ c (Proc.devRef .tc main_v7) = W1 m ρ c (Proc.devRef .tc main_v7) :=
  calc W9 m ρ c (Proc.devRef .tc main_v7)
    _ = W8 m ρ c (Proc.devRef .tc main_v7) := by host_keep hostOps4
    _ = W7 m ρ c (Proc.devRef .tc main_v7) := W8_of_ne m ρ c main_v7 (by decide)
    _ = W6 m ρ c (Proc.devRef .tc main_v7) := by host_keep hostOps3
    _ = W5 m ρ c (Proc.devRef .tc main_v7) := W6_of_ne m ρ c main_v7 (by decide)
    _ = W4 m ρ c (Proc.devRef .tc main_v7) := by host_keep hostOps2
    _ = W3 m ρ c (Proc.devRef .tc main_v7) := W4_of_ne m ρ c main_v7 (by decide)
    _ = W2 m ρ c (Proc.devRef .tc main_v7) := by host_keep hostOps1
    _ = W1 m ρ c (Proc.devRef .tc main_v7) := W2_of_ne m ρ c main_v7 (by decide)
/-- The projected queries reach the attention launch as written. -/
theorem v11_keep : W7 m ρ c (Proc.devRef .tc main_v11) = W3 m ρ c (Proc.devRef .tc main_v11) :=
  calc W7 m ρ c (Proc.devRef .tc main_v11)
    _ = W6 m ρ c (Proc.devRef .tc main_v11) := by host_keep hostOps3
    _ = W5 m ρ c (Proc.devRef .tc main_v11) := W6_of_ne m ρ c main_v11 (by decide)
    _ = W4 m ρ c (Proc.devRef .tc main_v11) := by host_keep hostOps2
    _ = W3 m ρ c (Proc.devRef .tc main_v11) := W4_of_ne m ρ c main_v11 (by decide)
/-- The projected keys reach the attention launch as written. -/
theorem v15_keep : W7 m ρ c (Proc.devRef .tc main_v15) = W5 m ρ c (Proc.devRef .tc main_v15) :=
  calc W7 m ρ c (Proc.devRef .tc main_v15)
    _ = W6 m ρ c (Proc.devRef .tc main_v15) := by host_keep hostOps3
    _ = W5 m ρ c (Proc.devRef .tc main_v15) := W6_of_ne m ρ c main_v15 (by decide)
/-- The keys' activations are as launched after the first launch. -/
theorem arg1_at2 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by host_keep hostOps0
    _ = m ((c : Thread nD τ).loc main_arg1) := rfl
/-- The keys' bias is as launched after the first launch. -/
theorem arg6_at2 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_keep hostOps0
    _ = m ((c : Thread nD τ).loc main_arg6) := rfl
/-- The values' activations are as launched after the second launch. -/
theorem arg2_at4 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by host_keep hostOps1
    _ = W1 m ρ c (Proc.devRef .tc main_arg2) := W2_of_ne m ρ c main_arg2 (by decide)
    _ = W0 m ρ c (Proc.devRef .tc main_arg2) := by host_keep hostOps0
    _ = m ((c : Thread nD τ).loc main_arg2) := rfl
/-- The values' bias is as launched after the second launch. -/
theorem arg8_at4 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keep hostOps1
    _ = W1 m ρ c (Proc.devRef .tc main_arg8) := W2_of_ne m ρ c main_arg8 (by decide)
    _ = W0 m ρ c (Proc.devRef .tc main_arg8) := by host_keep hostOps0
    _ = m ((c : Thread nD τ).loc main_arg8) := rfl
/-- The output bias is as launched after the attention launch. -/
theorem arg10_at8 : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := by host_keep hostOps3
    _ = W5 m ρ c (Proc.devRef .tc main_arg10) := W6_of_ne m ρ c main_arg10 (by decide)
    _ = W4 m ρ c (Proc.devRef .tc main_arg10) := by host_keep hostOps2
    _ = W3 m ρ c (Proc.devRef .tc main_arg10) := W4_of_ne m ρ c main_arg10 (by decide)
    _ = W2 m ρ c (Proc.devRef .tc main_arg10) := by host_keep hostOps1
    _ = W1 m ρ c (Proc.devRef .tc main_arg10) := W2_of_ne m ρ c main_arg10 (by decide)
    _ = W0 m ρ c (Proc.devRef .tc main_arg10) := by host_keep hostOps0
    _ = m ((c : Thread nD τ).loc main_arg10) := rfl

/-! ## Rows and bias rows made by the later stretches -/

theorem v12_at3 : (W3 m ρ c (Proc.devRef .tc main_v12) : S8192x1024.Idx → EReal)
    = (shapeCast S8192x1024 (m ((c : Thread nD τ).loc main_arg1)) shapeCasts_S4x2048x1024_S8192x1024 : S8192x1024.Idx → EReal) := by
  have e : (W3 m ρ c (Proc.devRef .tc main_v12) : S8192x1024.Idx → EReal)
      = shapeCast S8192x1024 (W2 m ρ c (Proc.devRef .tc main_arg1)) shapeCasts_S4x2048x1024_S8192x1024 := by
    dsimp only [W3, hostOps1]; after_results <;> rfl
  rw [e, arg1_at2]
theorem v13_at3 : (W3 m ρ c (Proc.devRef .tc main_v13) : S1x1024.Idx → EReal)
    = (shapeCast S1x1024 (m ((c : Thread nD τ).loc main_arg6)) shapeCasts_S1024_S1x1024 : S1x1024.Idx → EReal) := by
  have e : (W3 m ρ c (Proc.devRef .tc main_v13) : S1x1024.Idx → EReal)
      = shapeCast S1x1024 (W2 m ρ c (Proc.devRef .tc main_arg6)) shapeCasts_S1024_S1x1024 := by
    dsimp only [W3, hostOps1]; after_results <;> rfl
  rw [e, arg6_at2]
theorem v16_at5 : (W5 m ρ c (Proc.devRef .tc main_v16) : S8192x1024.Idx → EReal)
    = (shapeCast S8192x1024 (m ((c : Thread nD τ).loc main_arg2)) shapeCasts_S4x2048x1024_S8192x1024 : S8192x1024.Idx → EReal) := by
  have e : (W5 m ρ c (Proc.devRef .tc main_v16) : S8192x1024.Idx → EReal)
      = shapeCast S8192x1024 (W4 m ρ c (Proc.devRef .tc main_arg2)) shapeCasts_S4x2048x1024_S8192x1024 := by
    dsimp only [W5, hostOps2]; after_results <;> rfl
  rw [e, arg2_at4]
theorem v17_at5 : (W5 m ρ c (Proc.devRef .tc main_v17) : S1x1024.Idx → EReal)
    = (shapeCast S1x1024 (m ((c : Thread nD τ).loc main_arg8)) shapeCasts_S1024_S1x1024 : S1x1024.Idx → EReal) := by
  have e : (W5 m ρ c (Proc.devRef .tc main_v17) : S1x1024.Idx → EReal)
      = shapeCast S1x1024 (W4 m ρ c (Proc.devRef .tc main_arg8)) shapeCasts_S1024_S1x1024 := by
    dsimp only [W5, hostOps2]; after_results <;> rfl
  rw [e, arg8_at4]
theorem v22_at9 : (W9 m ρ c (Proc.devRef .tc main_v22) : S1x1024.Idx → EReal)
    = (shapeCast S1x1024 (m ((c : Thread nD τ).loc main_arg10)) shapeCasts_S1024_S1x1024 : S1x1024.Idx → EReal) := by
  have e : (W9 m ρ c (Proc.devRef .tc main_v22) : S1x1024.Idx → EReal)
      = shapeCast S1x1024 (W8 m ρ c (Proc.devRef .tc main_arg10)) shapeCasts_S1024_S1x1024 := by
    dsimp only [W9, hostOps4]; after_results <;> rfl
  rw [e, arg10_at8]
theorem v3_at3 : (W3 m ρ c (Proc.devRef .tc main_v3) : S1024x1024.Idx → EReal)
    = (truncf (F := Ideal) .bf16 (transpose S1024x1024 [1, 0] (m ((c : Thread nD τ).loc main_arg5)) transposes_S1024x1024_S1024x1024_1_0) bitsLt_bf16_f32 : S1024x1024.Idx → EReal) := (v3_keep m ρ c).trans (v3_at1 m ρ c)
theorem v5_at5 : (W5 m ρ c (Proc.devRef .tc main_v5) : S1024x1024.Idx → EReal)
    = (truncf (F := Ideal) .bf16 (transpose S1024x1024 [1, 0] (m ((c : Thread nD τ).loc main_arg7)) transposes_S1024x1024_S1024x1024_1_0) bitsLt_bf16_f32 : S1024x1024.Idx → EReal) := (v5_keep m ρ c).trans (v5_at1 m ρ c)
theorem v7_at9 : (W9 m ρ c (Proc.devRef .tc main_v7) : S1024x1024.Idx → EReal)
    = (truncf (F := Ideal) .bf16 (transpose S1024x1024 [1, 0] (m ((c : Thread nD τ).loc main_arg9)) transposes_S1024x1024_S1024x1024_1_0) bitsLt_bf16_f32 : S1024x1024.Idx → EReal) := (v7_keep m ρ c).trans (v7_at1 m ρ c)

/-! ## The three projections -/

/-- The first launch's output, regrouped into planes, is the projection of the queries. -/
theorem q_at3 (h0 : ∀ (V : Entry) (c : Dev nD), (dat0 (F := Ideal) V c).arrAt 3 cfg0.N = Cert.Spec.dense (V c main_v8) (V c main_v1) (V c main_v9)) :
    (W3 m ρ c (Proc.devRef .tc main_v11) : S4x2048x1024.Idx → EReal)
      = Cert.Spec.proj (m ((c : Thread nD τ).loc main_arg0)) (m ((c : Thread nD τ).loc main_arg3)) (m ((c : Thread nD τ).loc main_arg4)) := by
  have e : (W3 m ρ c (Proc.devRef .tc main_v11) : S4x2048x1024.Idx → EReal)
      = shapeCast S4x2048x1024 (W2 m ρ c (Proc.devRef .tc main_v10) : S8192x1024.Idx → EReal) shapeCasts_S8192x1024_S4x2048x1024 := by
    dsimp only [W3, hostOps1]; after_results <;> rfl
  have r : (W2 m ρ c (Proc.devRef .tc main_v10) : S8192x1024.Idx → EReal)
      = Cert.Spec.dense (shapeCast S8192x1024 (m ((c : Thread nD τ).loc main_arg0)) shapeCasts_S4x2048x1024_S8192x1024 : S8192x1024.Idx → EReal)
          (truncf (F := Ideal) .bf16 (transpose S1024x1024 [1, 0] (m ((c : Thread nD τ).loc main_arg3)) transposes_S1024x1024_S1024x1024_1_0) bitsLt_bf16_f32 : S1024x1024.Idx → EReal)
          (shapeCast S1x1024 (m ((c : Thread nD τ).loc main_arg4)) shapeCasts_S1024_S1x1024 : S1x1024.Idx → EReal) := by
    refine ((W2_arr m ρ c 3).trans (h0 (V1 m ρ) c)).trans ?_
    show Cert.Spec.dense (W1 m ρ c (Proc.devRef .tc main_v8)) (W1 m ρ c (Proc.devRef .tc main_v1)) (W1 m ρ c (Proc.devRef .tc main_v9)) = _
    rw [v8_at1, v1_at1, v9_at1]
  rw [e, r]
  exact Cert.ChainAlg.dense_regroup _ _ _ _ _ _ _ _
/-- The second launch's output, regrouped into planes, is the projection of the keys. -/
theorem k_at5 (h1 : ∀ (V : Entry) (c : Dev nD), (dat1 (F := Ideal) V c).arrAt 3 cfg1.N = Cert.Spec.dense (V c main_v12) (V c main_v3) (V c main_v13)) :
    (W5 m ρ c (Proc.devRef .tc main_v15) : S4x2048x1024.Idx → EReal)
      = Cert.Spec.proj (m ((c : Thread nD τ).loc main_arg1)) (m ((c : Thread nD τ).loc main_arg5)) (m ((c : Thread nD τ).loc main_arg6)) := by
  have e : (W5 m ρ c (Proc.devRef .tc main_v15) : S4x2048x1024.Idx → EReal)
      = shapeCast S4x2048x1024 (W4 m ρ c (Proc.devRef .tc main_v14) : S8192x1024.Idx → EReal) shapeCasts_S8192x1024_S4x2048x1024 := by
    dsimp only [W5, hostOps2]; after_results <;> rfl
  have r : (W4 m ρ c (Proc.devRef .tc main_v14) : S8192x1024.Idx → EReal)
      = Cert.Spec.dense (shapeCast S8192x1024 (m ((c : Thread nD τ).loc main_arg1)) shapeCasts_S4x2048x1024_S8192x1024 : S8192x1024.Idx → EReal)
          (truncf (F := Ideal) .bf16 (transpose S1024x1024 [1, 0] (m ((c : Thread nD τ).loc main_arg5)) transposes_S1024x1024_S1024x1024_1_0) bitsLt_bf16_f32 : S1024x1024.Idx → EReal)
          (shapeCast S1x1024 (m ((c : Thread nD τ).loc main_arg6)) shapeCasts_S1024_S1x1024 : S1x1024.Idx → EReal) := by
    refine ((W4_arr m ρ c 3).trans (h1 (V3 m ρ) c)).trans ?_
    show Cert.Spec.dense (W3 m ρ c (Proc.devRef .tc main_v12)) (W3 m ρ c (Proc.devRef .tc main_v3)) (W3 m ρ c (Proc.devRef .tc main_v13)) = _
    rw [v12_at3, v3_at3, v13_at3]
  rw [e, r]
  exact Cert.ChainAlg.dense_regroup _ _ _ _ _ _ _ _
/-- The third launch's output, regrouped into planes, is the projection of the values. -/
theorem v_at7 (h2 : ∀ (V : Entry) (c : Dev nD), (dat2 (F := Ideal) V c).arrAt 3 cfg2.N = Cert.Spec.dense (V c main_v16) (V c main_v5) (V c main_v17)) :
    (W7 m ρ c (Proc.devRef .tc main_v19) : S4x2048x1024.Idx → EReal)
      = Cert.Spec.proj (m ((c : Thread nD τ).loc main_arg2)) (m ((c : Thread nD τ).loc main_arg7)) (m ((c : Thread nD τ).loc main_arg8)) := by
  have e : (W7 m ρ c (Proc.devRef .tc main_v19) : S4x2048x1024.Idx → EReal)
      = shapeCast S4x2048x1024 (W6 m ρ c (Proc.devRef .tc main_v18) : S8192x1024.Idx → EReal) shapeCasts_S8192x1024_S4x2048x1024 := by
    dsimp only [W7, hostOps3]; after_results <;> rfl
  have r : (W6 m ρ c (Proc.devRef .tc main_v18) : S8192x1024.Idx → EReal)
      = Cert.Spec.dense (shapeCast S8192x1024 (m ((c : Thread nD τ).loc main_arg2)) shapeCasts_S4x2048x1024_S8192x1024 : S8192x1024.Idx → EReal)
          (truncf (F := Ideal) .bf16 (transpose S1024x1024 [1, 0] (m ((c : Thread nD τ).loc main_arg7)) transposes_S1024x1024_S1024x1024_1_0) bitsLt_bf16_f32 : S1024x1024.Idx → EReal)
          (shapeCast S1x1024 (m ((c : Thread nD τ).loc main_arg8)) shapeCasts_S1024_S1x1024 : S1x1024.Idx → EReal) := by
    refine ((W6_arr m ρ c 3).trans (h2 (V5 m ρ) c)).trans ?_
    show Cert.Spec.dense (W5 m ρ c (Proc.devRef .tc main_v16)) (W5 m ρ c (Proc.devRef .tc main_v5)) (W5 m ρ c (Proc.devRef .tc main_v17)) = _
    rw [v16_at5, v5_at5, v17_at5]
  rw [e, r]
  exact Cert.ChainAlg.dense_regroup _ _ _ _ _ _ _ _

/-! ## Attention, and the output projection -/

/-- The fourth launch's output is attention on the three projections. -/
theorem att_at8 (h0 : ∀ (V : Entry) (c : Dev nD), (dat0 (F := Ideal) V c).arrAt 3 cfg0.N = Cert.Spec.dense (V c main_v8) (V c main_v1) (V c main_v9)) (h1 : ∀ (V : Entry) (c : Dev nD), (dat1 (F := Ideal) V c).arrAt 3 cfg1.N = Cert.Spec.dense (V c main_v12) (V c main_v3) (V c main_v13)) (h2 : ∀ (V : Entry) (c : Dev nD), (dat2 (F := Ideal) V c).arrAt 3 cfg2.N = Cert.Spec.dense (V c main_v16) (V c main_v5) (V c main_v17)) (h3 : ∀ (V : Entry) (c : Dev nD), (dat3 (F := Ideal) V c).arrAt 3 cfg3.N = Cert.Spec.attn (V c main_v11) (V c main_v15) (V c main_v19)) :
    (W8 m ρ c (Proc.devRef .tc main_v20) : S4x2048x1024.Idx → EReal)
      = Cert.Spec.attn (Cert.Spec.proj (m ((c : Thread nD τ).loc main_arg0)) (m ((c : Thread nD τ).loc main_arg3)) (m ((c : Thread nD τ).loc main_arg4))) (Cert.Spec.proj (m ((c : Thread nD τ).loc main_arg1)) (m ((c : Thread nD τ).loc main_arg5)) (m ((c : Thread nD τ).loc main_arg6))) (Cert.Spec.proj (m ((c : Thread nD τ).loc main_arg2)) (m ((c : Thread nD τ).loc main_arg7)) (m ((c : Thread nD τ).loc main_arg8))) := by
  refine ((W8_arr m ρ c 3).trans (h3 (V7 m ρ) c)).trans ?_
  show Cert.Spec.attn (W7 m ρ c (Proc.devRef .tc main_v11)) (W7 m ρ c (Proc.devRef .tc main_v15)) (W7 m ρ c (Proc.devRef .tc main_v19)) = _
  rw [(v11_keep m ρ c).trans (q_at3 m ρ c h0), (v15_keep m ρ c).trans (k_at5 m ρ c h1), v_at7 m ρ c h2]
/-- The program's result buffer holds the whole layer of the launch arguments. -/
theorem result (h0 : ∀ (V : Entry) (c : Dev nD), (dat0 (F := Ideal) V c).arrAt 3 cfg0.N = Cert.Spec.dense (V c main_v8) (V c main_v1) (V c main_v9)) (h1 : ∀ (V : Entry) (c : Dev nD), (dat1 (F := Ideal) V c).arrAt 3 cfg1.N = Cert.Spec.dense (V c main_v12) (V c main_v3) (V c main_v13)) (h2 : ∀ (V : Entry) (c : Dev nD), (dat2 (F := Ideal) V c).arrAt 3 cfg2.N = Cert.Spec.dense (V c main_v16) (V c main_v5) (V c main_v17)) (h3 : ∀ (V : Entry) (c : Dev nD), (dat3 (F := Ideal) V c).arrAt 3 cfg3.N = Cert.Spec.attn (V c main_v11) (V c main_v15) (V c main_v19)) (h4 : ∀ (V : Entry) (c : Dev nD), (dat4 (F := Ideal) V c).arrAt 3 cfg4.N = Cert.Spec.dense (V c main_v21) (V c main_v7) (V c main_v22)) :
    (W11 m ρ c (Proc.devRef .tc main_v24) : S4x2048x1024.Idx → EReal)
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e : (W11 m ρ c (Proc.devRef .tc main_v24) : S4x2048x1024.Idx → EReal)
      = shapeCast S4x2048x1024 (W10 m ρ c (Proc.devRef .tc main_v23) : S8192x1024.Idx → EReal) shapeCasts_S8192x1024_S4x2048x1024 := by
    dsimp only [W11, hostOps5]; after_results <;> rfl
  have e21 : (W9 m ρ c (Proc.devRef .tc main_v21) : S8192x1024.Idx → EReal)
      = shapeCast S8192x1024 (W8 m ρ c (Proc.devRef .tc main_v20) : S4x2048x1024.Idx → EReal) shapeCasts_S4x2048x1024_S8192x1024 := by
    dsimp only [W9, hostOps4]; after_results <;> rfl
  have r : (W10 m ρ c (Proc.devRef .tc main_v23) : S8192x1024.Idx → EReal)
      = Cert.Spec.dense (shapeCast S8192x1024 (Cert.Spec.attn (Cert.Spec.proj (m ((c : Thread nD τ).loc main_arg0)) (m ((c : Thread nD τ).loc main_arg3)) (m ((c : Thread nD τ).loc main_arg4))) (Cert.Spec.proj (m ((c : Thread nD τ).loc main_arg1)) (m ((c : Thread nD τ).loc main_arg5)) (m ((c : Thread nD τ).loc main_arg6))) (Cert.Spec.proj (m ((c : Thread nD τ).loc main_arg2)) (m ((c : Thread nD τ).loc main_arg7)) (m ((c : Thread nD τ).loc main_arg8)))) shapeCasts_S4x2048x1024_S8192x1024 : S8192x1024.Idx → EReal)
          (truncf (F := Ideal) .bf16 (transpose S1024x1024 [1, 0] (m ((c : Thread nD τ).loc main_arg9)) transposes_S1024x1024_S1024x1024_1_0) bitsLt_bf16_f32 : S1024x1024.Idx → EReal)
          (shapeCast S1x1024 (m ((c : Thread nD τ).loc main_arg10)) shapeCasts_S1024_S1x1024 : S1x1024.Idx → EReal) := by
    refine ((W10_arr m ρ c 3).trans (h4 (V9 m ρ) c)).trans ?_
    show Cert.Spec.dense (W9 m ρ c (Proc.devRef .tc main_v21)) (W9 m ρ c (Proc.devRef .tc main_v7)) (W9 m ρ c (Proc.devRef .tc main_v22)) = _
    rw [e21, att_at8 m ρ c h0 h1 h2 h3, v7_at9, v22_at9]
  rw [e, r]
  exact Cert.ChainAlg.dense_regroup _ _ _ _ _ _ _ _

end Cert.KernelIdeal.Chain

end
-- ==== Proof.Bridge.lean ====
/-
  The two idealized programs end with equal results.

  From memories that agree on the eleven arguments, the kernel program's result buffer ends at the whole layer — three
  projections, attention, the output projection — of its launch arguments, and the reference program's result is the
  same function of its own arguments; the arguments being equal, so are the results.  What each of the kernel's five
  launches leaves in its output array, and that the reference's composed operations are the whole layer, enter as
  hypotheses.
-/
import proofs.«146961_j83382495084952_2_alg».proof.Defs
import proofs.«146961_j83382495084952_2_alg».proof.Proof.Gen.KernelIdeal
import proofs.«146961_j83382495084952_2_alg».proof.Proof.Gen.ReferenceIdeal
import proofs.«146961_j83382495084952_2_alg».proof.Proof.Gen.Pre_finite_inputs
import proofs.«146961_j83382495084952_2_alg».proof.Proof.Gen.ReferenceIdeal.Run
import proofs.«146961_j83382495084952_2_alg».proof.Proof.Gen.ReferenceIdeal.Read
import proofs.«146961_j83382495084952_2_alg».proof.Proof.KRun
import proofs.«146961_j83382495084952_2_alg».proof.Proof.Chain

set_option maxRecDepth 16384

noncomputable section

namespace Cert.Bridge

open Idealize.ShloMosaic Idealize.ShloMosaic.TcCoe Idealize.SL.Sem

open Cert.KernelIdeal Cert.KernelIdeal.Gen in
/-- The algebraic claim, from the five launches' outputs and the reference's composed term. -/
theorem algebraic_of
    (h0 : ∀ (V : Cert.KernelIdeal.Chain.Entry) (c : Dev nD), (dat0 (F := Ideal) V c).arrAt 3 cfg0.N = Cert.Spec.dense (V c main_v8) (V c main_v1) (V c main_v9))
    (h1 : ∀ (V : Cert.KernelIdeal.Chain.Entry) (c : Dev nD), (dat1 (F := Ideal) V c).arrAt 3 cfg1.N = Cert.Spec.dense (V c main_v12) (V c main_v3) (V c main_v13))
    (h2 : ∀ (V : Cert.KernelIdeal.Chain.Entry) (c : Dev nD), (dat2 (F := Ideal) V c).arrAt 3 cfg2.N = Cert.Spec.dense (V c main_v16) (V c main_v5) (V c main_v17))
    (h3 : ∀ (V : Cert.KernelIdeal.Chain.Entry) (c : Dev nD), (dat3 (F := Ideal) V c).arrAt 3 cfg3.N = Cert.Spec.attn (V c main_v11) (V c main_v15) (V c main_v19))
    (h4 : ∀ (V : Cert.KernelIdeal.Chain.Entry) (c : Dev nD), (dat4 (F := Ideal) V c).arrAt 3 cfg4.N = Cert.Spec.dense (V c main_v21) (V c main_v7) (V c main_v22))
    (href : ∀ (x0 x1 x2 : (⟨Cert.ReferenceIdeal.S4x2048x1024, .f32⟩ : BufTy).Contents (Elt Ideal)) (x3 : (⟨Cert.ReferenceIdeal.S1024x1024, .f32⟩ : BufTy).Contents (Elt Ideal)) (x4 : (⟨Cert.ReferenceIdeal.S1024, .f32⟩ : BufTy).Contents (Elt Ideal)) (x5 : (⟨Cert.ReferenceIdeal.S1024x1024, .f32⟩ : BufTy).Contents (Elt Ideal)) (x6 : (⟨Cert.ReferenceIdeal.S1024, .f32⟩ : BufTy).Contents (Elt Ideal)) (x7 : (⟨Cert.ReferenceIdeal.S1024x1024, .f32⟩ : BufTy).Contents (Elt Ideal)) (x8 : (⟨Cert.ReferenceIdeal.S1024, .f32⟩ : BufTy).Contents (Elt Ideal)) (x9 : (⟨Cert.ReferenceIdeal.S1024x1024, .f32⟩ : BufTy).Contents (Elt Ideal)) (x10 : (⟨Cert.ReferenceIdeal.S1024, .f32⟩ : BufTy).Contents (Elt Ideal)),
      Cert.ReferenceIdeal.Read.val_main_v40 (F := Ideal) x0 x1 x2 x3 x4 x5 x6 x7 x8 x9 x10 = Cert.Spec.out x0 x1 x2 x3 x4 x5 x6 x7 x8 x9 x10) :
    Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c h0 h1 h2 h3 h4), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v40_eq, href, e0, e1, e2, e3, e4, e5, e6, e7, e8, e9, e10]

end Cert.Bridge

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.DensePay.lean ====
/-
  One block of the linear layer, entry by entry, on the extended reals.

  The body multiplies a block of 1024 rows by the square weight matrix (rows against columns), into a zero
  accumulator, and adds the bias row to every row.  Every change of float format is the identity on the
  extended reals, so entry `(p, q)` of what it stores is `∑ k, x[p, k] · w[k, q] + b[0, q]`.  The same
  holds for the three projections (an f32 block in, a bf16 block out) and for the output projection (bf16 in,
  f32 out): the four bodies differ only in their format changes.
-/
import proofs.«146961_j83382495084952_2_alg».proof.Proof.Gen.KernelIdeal.Skeleton
import proofs.«146961_j83382495084952_2_alg».proof.Proof.LibLayout
import proofs.«146961_j83382495084952_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Dense

open Cert.KernelIdeal Cert.KernelIdeal.Gen Idealize.ShloMosaic Idealize.ShloMosaic.ValueIdx

/-- The product's left operand is read, on its free axis, at the result's row. -/
theorem dot_lhs_row (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The product's right operand is read, on its free axis, at the result's column. -/
theorem dot_rhs_col (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Rows times columns into the zero accumulator, at `(p, q)`: the sum over `k` of `a[p, k] · w[k, q]`. -/
theorem matmul_apply {φ₁ φ₂ : FTy} (a : FVec Ideal S1024x1024 φ₁) (w : FVec Ideal S1024x1024 φ₂) (p q : Fin 1024) :
    matmul dot_S1024x1024_S1024x1024_S1024x1024_1_0_0_1_n_n none a w (constant S1024x1024 .f32 0x00000000#32) (ix2 p q)
      = ∑ k : Fin 1024, a (ix2 p k) * w (ix2 k q) :=
  Cert.LibLayout.matmul_rows_cols_apply dot_S1024x1024_S1024x1024_S1024x1024_1_0_0_1_n_n rfl rfl rfl rfl dot_lhs_row dot_rhs_col none a w p q

/-- The bias row repeated down the rows, at `(p, q)`: the row's entry `q`. -/
theorem bias_apply (b : FVec Ideal S1x1024 .f32) (p q : Fin 1024) :
    broadcastTo S1024x1024 (shapeCast S1x1024 b shapeCasts_S1x1024_S1x1024) broadcasts_S1x1024_S1024x1024 (ix2 p q)
      = b (ix2 (0 : Fin 1) q) :=
  (broadcastTo_1b_ab_apply _ broadcasts_S1x1024_S1024x1024 p q).trans
    (congrFun (shapeCast_self b shapeCasts_S1x1024_S1x1024) _)

/-- What a projection's body stores, at `(p, q)`. -/
theorem pay0_apply (x0 : Vec Ideal S1024x1024 .f32) (x1 : Vec Ideal S1024x1024 .bf16) (x2 : Vec Ideal S1x1024 .f32)
    (p q : Fin 1024) :
    k0_pay1 (F := Ideal) x0 x1 x2 (ix2 p q) = (∑ k : Fin 1024, x0 (ix2 p k) * x1 (ix2 k q)) + x2 (ix2 (0 : Fin 1) q) := by
  show matmul (F := Ideal) dot_S1024x1024_S1024x1024_S1024x1024_1_0_0_1_n_n none
        (truncf (F := Ideal) (φ := .f32) .bf16 (shapeCast S1024x1024 x0 shapeCasts_S1024x1024_S1024x1024) bitsLt_bf16_f32)
        (shapeCast S1024x1024 x1 shapeCasts_S1024x1024_S1024x1024) (constant S1024x1024 .f32 0x00000000#32) (ix2 p q)
      + (broadcastTo S1024x1024 (shapeCast S1x1024 x2 shapeCasts_S1x1024_S1x1024) broadcasts_S1x1024_S1024x1024 : FVec Ideal S1024x1024 .f32) (ix2 p q) = _
  refine congrArg₂ (· + ·) ((matmul_apply _ _ p q).trans ?_) (bias_apply x2 p q)
  refine Finset.sum_congr rfl fun k _ => ?_
  exact congrArg₂ (· * ·) (congrFun (shapeCast_self x0 shapeCasts_S1024x1024_S1024x1024) _)
    (congrFun (shapeCast_self x1 shapeCasts_S1024x1024_S1024x1024) _)

/-- The three projections' bodies are one term. -/
theorem pay1_eq : @k1_pay1 Ideal _ = @k0_pay1 Ideal _ := rfl
theorem pay2_eq : @k2_pay1 Ideal _ = @k0_pay1 Ideal _ := rfl

theorem pay1_apply (x0 : Vec Ideal S1024x1024 .f32) (x1 : Vec Ideal S1024x1024 .bf16) (x2 : Vec Ideal S1x1024 .f32)
    (p q : Fin 1024) :
    k1_pay1 (F := Ideal) x0 x1 x2 (ix2 p q) = (∑ k : Fin 1024, x0 (ix2 p k) * x1 (ix2 k q)) + x2 (ix2 (0 : Fin 1) q) :=
  (congrFun (congrFun (congrFun (congrFun pay1_eq x0) x1) x2) (ix2 p q)).trans (pay0_apply x0 x1 x2 p q)

theorem pay2_apply (x0 : Vec Ideal S1024x1024 .f32) (x1 : Vec Ideal S1024x1024 .bf16) (x2 : Vec Ideal S1x1024 .f32)
    (p q : Fin 1024) :
    k2_pay1 (F := Ideal) x0 x1 x2 (ix2 p q) = (∑ k : Fin 1024, x0 (ix2 p k) * x1 (ix2 k q)) + x2 (ix2 (0 : Fin 1) q) :=
  (congrFun (congrFun (congrFun (congrFun pay2_eq x0) x1) x2) (ix2 p q)).trans (pay0_apply x0 x1 x2 p q)

/-- What the output projection's body stores, at `(p, q)`. -/
theorem pay4_apply (x0 : Vec Ideal S1024x1024 .bf16) (x1 : Vec Ideal S1024x1024 .bf16) (x2 : Vec Ideal S1x1024 .f32)
    (p q : Fin 1024) :
    k4_pay1 (F := Ideal) x0 x1 x2 (ix2 p q) = (∑ k : Fin 1024, x0 (ix2 p k) * x1 (ix2 k q)) + x2 (ix2 (0 : Fin 1) q) := by
  show matmul (F := Ideal) (φ₁ := .bf16) (φ₂ := .bf16) dot_S1024x1024_S1024x1024_S1024x1024_1_0_0_1_n_n none
        (shapeCast S1024x1024 x0 shapeCasts_S1024x1024_S1024x1024)
        (shapeCast S1024x1024 x1 shapeCasts_S1024x1024_S1024x1024) (constant S1024x1024 .f32 0x00000000#32) (ix2 p q)
      + (broadcastTo S1024x1024 (shapeCast S1x1024 x2 shapeCasts_S1x1024_S1x1024) broadcasts_S1x1024_S1024x1024 : FVec Ideal S1024x1024 .f32) (ix2 p q) = _
  refine congrArg₂ (· + ·) ((matmul_apply _ _ p q).trans ?_) (bias_apply x2 p q)
  refine Finset.sum_congr rfl fun k _ => ?_
  exact congrArg₂ (· * ·) (congrFun (shapeCast_self x0 shapeCasts_S1024x1024_S1024x1024) _)
    (congrFun (shapeCast_self x1 shapeCasts_S1024x1024_S1024x1024) _)

/-- A block's entry is the layer's entry: when the block's row `p` is row `r` of the row matrix, and the weights
    and the bias row are read whole, the block's sum plus bias at `(p, q)` is `dense` at `(r, q)`. -/
theorem dense_block (X : Cert.Spec.Rows) (W : Cert.Spec.Mat) (B : Cert.Spec.BiasRow)
    (x0 x1 : S1024x1024.Idx → EReal) (x2 : S1x1024.Idx → EReal) (r : Fin 8192) (p q : Fin 1024)
    (h0 : ∀ k : Fin 1024, x0 (ix2 p k) = X (ix2 r k)) (h1 : ∀ k : Fin 1024, x1 (ix2 k q) = W (ix2 k q))
    (h2 : x2 (ix2 (0 : Fin 1) q) = B (ix2 (0 : Fin 1) q)) :
    (∑ k : Fin 1024, x0 (ix2 p k) * x1 (ix2 k q)) + x2 (ix2 (0 : Fin 1) q) = Cert.Spec.dense X W B (ix2 r q) := by
  show _ = (∑ k : Fin 1024, X (ix2 r k) * W (ix2 k q)) + B (ix2 (0 : Fin 1) q)
  rw [h2]
  refine congrArg (· + B (ix2 (0 : Fin 1) q)) (Finset.sum_congr rfl fun k _ => ?_)
  rw [h0 k, h1 k]

end Cert.Dense

end
-- ==== Proof.DenseR0.lean ====
/-
  The first projection (of the queries): from the blocks of rows the grid writes back to the whole array.

  Grid point `t` of eight reads rows `1024·t … 1024·t + 1023` of the row matrix, the whole weight matrix and the
  whole bias row, and writes back the same rows of the result.  Each block written back is the restriction to
  those rows of one function of the three arrays, `dense`: entry `(r, e)` is `∑ k, X[r, k] · W[k, e] + B[0, e]`.
  Row `r` lies in the block of point `r / 1024`, so the eight blocks cover the array and it ends holding `dense`.
-/
import proofs.«146961_j83382495084952_2_alg».proof.Proof.Gen.KernelIdeal.Frame
import proofs.«146961_j83382495084952_2_alg».proof.Proof.Spec
import proofs.«146961_j83382495084952_2_alg».proof.Proof.DensePay
import Idealize.ShloMosaic.Lib.Pipeline.Value

noncomputable section

namespace Cert.Dense.R0

open Cert.Dense Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stores' offsets are zero on both axes. -/
theorem zero_offsets : (![0, 0] : Fin 2 → Nat) = fun _ => 0 := funext fun a => by fin_cases a <;> rfl

/-- The index maps over the eight points: the rows' and the result's block index is `(t, 0)`, the weights' and
    the bias row's is `(0, 0)`. -/
theorem maps : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point is below eight. -/
theorem point_lt (t : Fin cfg0.N) : t.val < 8 := by
  exact Nat.lt_of_lt_of_eq t.isLt N_0

/-- The rows' block at point `t`, at `(p, k)`: row `1024·t + p` of the row matrix. -/
theorem rows_at (c : Dev nD) (t : Fin cfg0.N) (p k : Fin 1024) (r : Fin 8192) (hr : r.val = t.val * 1024 + p.val) :
    iblk0 V c 0 t (ix2 p k) = (V c main_v8 : S8192x1024.Idx → EReal) (ix2 r k) := by
  obtain ⟨e0, e1, -⟩ := maps t
  show (V c main_v8 : S8192x1024.Idx → EReal) (((cfg0.win 0).blk t).view.emb (ix2 p k)) = _
  refine congrArg (V c main_v8 : S8192x1024.Idx → EReal) (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- The weights' block at any point is the whole weight matrix. -/
theorem weights_at (c : Dev nD) (t : Fin cfg0.N) (k q : Fin 1024) :
    iblk0 V c 1 t (ix2 k q) = (V c main_v1 : S1024x1024.Idx → EReal) (ix2 k q) := by
  obtain ⟨-, -, e0, e1, -⟩ := maps t
  show (V c main_v1 : S1024x1024.Idx → EReal) (((cfg0.win 1).blk t).view.emb (ix2 k q)) = _
  refine congrArg (V c main_v1 : S1024x1024.Idx → EReal) (funext fun a => Fin.ext ?_)
  match a with
  | ⟨0, _⟩ => show win0_1.index t (0 : Fin 2) * 1024 + 1 * k.val = k.val; omega
  | ⟨1, _⟩ => show win0_1.index t (1 : Fin 2) * 1024 + 1 * q.val = q.val; omega

/-- The bias row's block at any point is the whole bias row. -/
theorem bias_at (c : Dev nD) (t : Fin cfg0.N) (q : Fin 1024) :
    iblk0 V c 2 t (ix2 (0 : Fin 1) q) = (V c main_v9 : S1x1024.Idx → EReal) (ix2 (0 : Fin 1) q) := by
  obtain ⟨-, -, -, -, e0, e1, -⟩ := maps t
  show (V c main_v9 : S1x1024.Idx → EReal) (((cfg0.win 2).blk t).view.emb (ix2 (0 : Fin 1) q)) = _
  refine congrArg (V c main_v9 : S1x1024.Idx → EReal) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 1024 + 1 * q.val = q.val; omega

/-- The result's block at point `t` sits at rows `1024·t …` of the array. -/
theorem out_at (t : Fin cfg0.N) (p q : Fin 1024) (r : Fin 8192) (hr : r.val = t.val * 1024 + p.val) :
    ((cfg0.win 3).blk t).view.emb (ix2 p q) = (ix2 r q : S8192x1024.Idx) := by
  obtain ⟨-, -, -, -, -, -, e0, e1⟩ := maps t
  refine funext fun a => Fin.ext ?_
  match a with
  | ⟨0, _⟩ => show win0_3.index t (0 : Fin 2) * 1024 + 1 * p.val = r.val; omega
  | ⟨1, _⟩ => show win0_3.index t (1 : Fin 2) * 1024 + 1 * q.val = q.val; omega

/-- What point `t` writes back is block `t` of `dense` of the three arrays as the region finds them. -/
theorem flushed_eq (c : Dev nD) (t : Fin cfg0.N) :
    (dat0 (F := Ideal) V c).flushed 3 t
      = ((cfg0.win 3).blk t).view.read (Elt Ideal) (Cert.Spec.dense (V c main_v8) (V c main_v1) (V c main_v9)) := by
  show (cfg0.win 3).cut (grid0.coords t) ((dat0 V c).after 3 t) = _
  rw [after0_3]
  unfold out0_3
  rw [View.canon_unit_zero zero_offsets]
  simp only [View.ld_unit_zero (S := S1024x1024) zero_offsets, View.ld_unit_zero (S := S1x1024) zero_offsets]
  refine funext fun (j : S1024x1024.Idx) => ?_
  obtain ⟨p, q, rfl⟩ : ∃ (p q : Fin 1024), j = ix2 p q := ⟨j 0, j 1, eq_ix2 j⟩
  have ht := point_lt t
  have hr : t.val * 1024 + p.val < 8192 := by have := p.isLt; omega
  show k0_pay1 (F := Ideal) (iblk0 V c 0 t) (iblk0 V c 1 t) (iblk0 V c 2 t) (ix2 p q)
      = Cert.Spec.dense (V c main_v8) (V c main_v1) (V c main_v9) (((cfg0.win 3).blk t).view.emb (ix2 p q))
  rw [out_at t p q ⟨t.val * 1024 + p.val, hr⟩ rfl]
  refine (pay0_apply _ _ _ p q).trans ?_
  exact dense_block (V c main_v8) (V c main_v1) (V c main_v9) _ _ _ ⟨t.val * 1024 + p.val, hr⟩ p q
    (fun k => rows_at V c t p k ⟨t.val * 1024 + p.val, hr⟩ rfl) (fun k => weights_at V c t k q) (bias_at V c t q)

/-- An index of the array is in point `t`'s block iff each coordinate is in the block's range on its axis. -/
theorem mem_block (t : Fin cfg0.N) (i : S8192x1024.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v10).slice (win0_3.rect t)).set ↔ _
  rw [View.set_slice_whole, Rect.mem_set_unit]
  exact Iff.rfl

/-- Row `r` is in the block of point `r / 1024`: the eight blocks cover the array. -/
theorem covered (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  refine ⟨⟨(i 0).val / 1024, by rw [hN]; omega⟩, flush0_3 _, ?_⟩
  rw [mem_block]
  obtain ⟨-, -, -, -, -, -, e0, e1⟩ := maps ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 1024 ≤ (i 1).val ∧ (i 1).val < win0_3.index _ (1 : Fin 2) * 1024 + 1024
    rw [e1]; omega

/-- The result array after the region: `dense` of the row matrix, the weight matrix and the bias row as the region
    finds them. -/
theorem region0_out (c : Dev nD) :
    (dat0 (F := Ideal) V c).arrAt 3 cfg0.N = Cert.Spec.dense (V c main_v8) (V c main_v1) (V c main_v9) :=
  (dat0 (F := Ideal) V c).arrAt_eq_of_cover 3 (Cert.Spec.dense (V c main_v8) (V c main_v1) (V c main_v9))
    (fun t _ => flushed_eq V c t) covered

end Cert.Dense.R0

end
-- ==== Proof.DenseR1.lean ====
/-
  The second projection (of the keys): from the blocks of rows the grid writes back to the whole array.

  Grid point `t` of eight reads rows `1024·t … 1024·t + 1023` of the row matrix, the whole weight matrix and the
  whole bias row, and writes back the same rows of the result.  Each block written back is the restriction to
  those rows of one function of the three arrays, `dense`: entry `(r, e)` is `∑ k, X[r, k] · W[k, e] + B[0, e]`.
  Row `r` lies in the block of point `r / 1024`, so the eight blocks cover the array and it ends holding `dense`.
-/
import proofs.«146961_j83382495084952_2_alg».proof.Proof.Gen.KernelIdeal.Frame
import proofs.«146961_j83382495084952_2_alg».proof.Proof.Spec
import proofs.«146961_j83382495084952_2_alg».proof.Proof.DensePay
import Idealize.ShloMosaic.Lib.Pipeline.Value

noncomputable section

namespace Cert.Dense.R1

open Cert.Dense Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stores' offsets are zero on both axes. -/
theorem zero_offsets : (![0, 0] : Fin 2 → Nat) = fun _ => 0 := funext fun a => by fin_cases a <;> rfl

/-- The index maps over the eight points: the rows' and the result's block index is `(t, 0)`, the weights' and
    the bias row's is `(0, 0)`. -/
theorem maps : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A grid point is below eight. -/
theorem point_lt (t : Fin cfg1.N) : t.val < 8 := by
  exact Nat.lt_of_lt_of_eq t.isLt N_1

/-- The rows' block at point `t`, at `(p, k)`: row `1024·t + p` of the row matrix. -/
theorem rows_at (c : Dev nD) (t : Fin cfg1.N) (p k : Fin 1024) (r : Fin 8192) (hr : r.val = t.val * 1024 + p.val) :
    iblk1 V c 0 t (ix2 p k) = (V c main_v12 : S8192x1024.Idx → EReal) (ix2 r k) := by
  obtain ⟨e0, e1, -⟩ := maps t
  show (V c main_v12 : S8192x1024.Idx → EReal) (((cfg1.win 0).blk t).view.emb (ix2 p k)) = _
  refine congrArg (V c main_v12 : S8192x1024.Idx → EReal) (funext fun a => Fin.ext ?_)
  match a with
  | ⟨0, _⟩ => show win1_0.index t (0 : Fin 2) * 1024 + 1 * p.val = r.val; omega
  | ⟨1, _⟩ => show win1_0.index t (1 : Fin 2) * 1024 + 1 * k.val = k.val; omega

/-- The weights' block at any point is the whole weight matrix. -/
theorem weights_at (c : Dev nD) (t : Fin cfg1.N) (k q : Fin 1024) :
    iblk1 V c 1 t (ix2 k q) = (V c main_v3 : S1024x1024.Idx → EReal) (ix2 k q) := by
  obtain ⟨-, -, e0, e1, -⟩ := maps t
  show (V c main_v3 : S1024x1024.Idx → EReal) (((cfg1.win 1).blk t).view.emb (ix2 k q)) = _
  refine congrArg (V c main_v3 : S1024x1024.Idx → EReal) (funext fun a => Fin.ext ?_)
  match a with
  | ⟨0, _⟩ => show win1_1.index t (0 : Fin 2) * 1024 + 1 * k.val = k.val; omega
  | ⟨1, _⟩ => show win1_1.index t (1 : Fin 2) * 1024 + 1 * q.val = q.val; omega

/-- The bias row's block at any point is the whole bias row. -/
theorem bias_at (c : Dev nD) (t : Fin cfg1.N) (q : Fin 1024) :
    iblk1 V c 2 t (ix2 (0 : Fin 1) q) = (V c main_v13 : S1x1024.Idx → EReal) (ix2 (0 : Fin 1) q) := by
  obtain ⟨-, -, -, -, e0, e1, -⟩ := maps t
  show (V c main_v13 : S1x1024.Idx → EReal) (((cfg1.win 2).blk t).view.emb (ix2 (0 : Fin 1) q)) = _
  refine congrArg (V c main_v13 : S1x1024.Idx → EReal) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 1024 + 1 * q.val = q.val; omega

/-- The result's block at point `t` sits at rows `1024·t …` of the array. -/
theorem out_at (t : Fin cfg1.N) (p q : Fin 1024) (r : Fin 8192) (hr : r.val = t.val * 1024 + p.val) :
    ((cfg1.win 3).blk t).view.emb (ix2 p q) = (ix2 r q : S8192x1024.Idx) := by
  obtain ⟨-, -, -, -, -, -, e0, e1⟩ := maps t
  refine funext fun a => Fin.ext ?_
  match a with
  | ⟨0, _⟩ => show win1_3.index t (0 : Fin 2) * 1024 + 1 * p.val = r.val; omega
  | ⟨1, _⟩ => show win1_3.index t (1 : Fin 2) * 1024 + 1 * q.val = q.val; omega

/-- What point `t` writes back is block `t` of `dense` of the three arrays as the region finds them. -/
theorem flushed_eq (c : Dev nD) (t : Fin cfg1.N) :
    (dat1 (F := Ideal) V c).flushed 3 t
      = ((cfg1.win 3).blk t).view.read (Elt Ideal) (Cert.Spec.dense (V c main_v12) (V c main_v3) (V c main_v13)) := by
  show (cfg1.win 3).cut (grid1.coords t) ((dat1 V c).after 3 t) = _
  rw [after1_3]
  unfold out1_3
  rw [View.canon_unit_zero zero_offsets]
  simp only [View.ld_unit_zero (S := S1024x1024) zero_offsets, View.ld_unit_zero (S := S1x1024) zero_offsets]
  refine funext fun (j : S1024x1024.Idx) => ?_
  obtain ⟨p, q, rfl⟩ : ∃ (p q : Fin 1024), j = ix2 p q := ⟨j 0, j 1, eq_ix2 j⟩
  have ht := point_lt t
  have hr : t.val * 1024 + p.val < 8192 := by have := p.isLt; omega
  show k1_pay1 (F := Ideal) (iblk1 V c 0 t) (iblk1 V c 1 t) (iblk1 V c 2 t) (ix2 p q)
      = Cert.Spec.dense (V c main_v12) (V c main_v3) (V c main_v13) (((cfg1.win 3).blk t).view.emb (ix2 p q))
  rw [out_at t p q ⟨t.val * 1024 + p.val, hr⟩ rfl]
  refine (pay1_apply _ _ _ p q).trans ?_
  exact dense_block (V c main_v12) (V c main_v3) (V c main_v13) _ _ _ ⟨t.val * 1024 + p.val, hr⟩ p q
    (fun k => rows_at V c t p k ⟨t.val * 1024 + p.val, hr⟩ rfl) (fun k => weights_at V c t k q) (bias_at V c t q)

/-- An index of the array is in point `t`'s block iff each coordinate is in the block's range on its axis. -/
theorem mem_block (t : Fin cfg1.N) (i : S8192x1024.Idx) :
    i ∈ ((cfg1.win 3).blk t).view.set
      ↔ ∀ a : Fin 2, win1_3.index t a * S1024x1024.size a ≤ (i a).val ∧ (i a).val < win1_3.index t a * S1024x1024.size a + S1024x1024.size a := by
  show i ∈ ((View.whole main_v14).slice (win1_3.rect t)).set ↔ _
  rw [View.set_slice_whole, Rect.mem_set_unit]
  exact Iff.rfl

/-- Row `r` is in the block of point `r / 1024`: the eight blocks cover the array. -/
theorem covered (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 8 := N_1
  refine ⟨⟨(i 0).val / 1024, by rw [hN]; omega⟩, flush1_3 _, ?_⟩
  rw [mem_block]
  obtain ⟨-, -, -, -, -, -, e0, e1⟩ := maps ⟨(i 0).val / 1024, by rw [hN]; omega⟩
  intro a
  match a with
  | ⟨0, _⟩ =>
    show win1_3.index _ (0 : Fin 2) * 1024 ≤ (i 0).val ∧ (i 0).val < win1_3.index _ (0 : Fin 2) * 1024 + 1024
    rw [e0]; show (i 0).val / 1024 * 1024 ≤ (i 0).val ∧ (i 0).val < (i 0).val / 1024 * 1024 + 1024; omega
  | ⟨1, _⟩ =>
    show win1_3.index _ (1 : Fin 2) * 1024 ≤ (i 1).val ∧ (i 1).val < win1_3.index _ (1 : Fin 2) * 1024 + 1024
    rw [e1]; omega

/-- The result array after the region: `dense` of the row matrix, the weight matrix and the bias row as the region
    finds them. -/
theorem region1_out (c : Dev nD) :
    (dat1 (F := Ideal) V c).arrAt 3 cfg1.N = Cert.Spec.dense (V c main_v12) (V c main_v3) (V c main_v13) :=
  (dat1 (F := Ideal) V c).arrAt_eq_of_cover 3 (Cert.Spec.dense (V c main_v12) (V c main_v3) (V c main_v13))
    (fun t _ => flushed_eq V c t) covered

end Cert.Dense.R1

end
-- ==== Proof.DenseR2.lean ====
/-
  The third projection (of the values): from the blocks of rows the grid writes back to the whole array.

  Grid point `t` of eight reads rows `1024·t … 1024·t + 1023` of the row matrix, the whole weight matrix and the
  whole bias row, and writes back the same rows of the result.  Each block written back is the restriction to
  those rows of one function of the three arrays, `dense`: entry `(r, e)` is `∑ k, X[r, k] · W[k, e] + B[0, e]`.
  Row `r` lies in the block of point `r / 1024`, so the eight blocks cover the array and it ends holding `dense`.
-/
import proofs.«146961_j83382495084952_2_alg».proof.Proof.Gen.KernelIdeal.Frame
import proofs.«146961_j83382495084952_2_alg».proof.Proof.Spec
import proofs.«146961_j83382495084952_2_alg».proof.Proof.DensePay
import Idealize.ShloMosaic.Lib.Pipeline.Value

noncomputable section

namespace Cert.Dense.R2

open Cert.Dense Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stores' offsets are zero on both axes. -/
theorem zero_offsets : (![0, 0] : Fin 2 → Nat) = fun _ => 0 := funext fun a => by fin_cases a <;> rfl

/-- The index maps over the eight points: the rows' and the result's block index is `(t, 0)`, the weights' and
    the bias row's is `(0, 0)`. -/
theorem maps : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A grid point is below eight. -/
theorem point_lt (t : Fin cfg2.N) : t.val < 8 := by
  exact Nat.lt_of_lt_of_eq t.isLt N_2

/-- The rows' block at point `t`, at `(p, k)`: row `1024·t + p` of the row matrix. -/
theorem rows_at (c : Dev nD) (t : Fin cfg2.N) (p k : Fin 1024) (r : Fin 8192) (hr : r.val = t.val * 1024 + p.val) :
    iblk2 V c 0 t (ix2 p k) = (V c main_v16 : S8192x1024.Idx → EReal) (ix2 r k) := by
  obtain ⟨e0, e1, -⟩ := maps t
  show (V c main_v16 : S8192x1024.Idx → EReal) (((cfg2.win 0).blk t).view.emb (ix2 p k)) = _
  refine congrArg (V c main_v16 : S8192x1024.Idx → EReal) (funext fun a => Fin.ext ?_)
  match a with
  | ⟨0, _⟩ => show win2_0.index t (0 : Fin 2) * 1024 + 1 * p.val = r.val; omega
  | ⟨1, _⟩ => show win2_0.index t (1 : Fin 2) * 1024 + 1 * k.val = k.val; omega

/-- The weights' block at any point is the whole weight matrix. -/
theorem weights_at (c : Dev nD) (t : Fin cfg2.N) (k q : Fin 1024) :
    iblk2 V c 1 t (ix2 k q) = (V c main_v5 : S1024x1024.Idx → EReal) (ix2 k q) := by
  obtain ⟨-, -, e0, e1, -⟩ := maps t
  show (V c main_v5 : S1024x1024.Idx → EReal) (((cfg2.win 1).blk t).view.emb (ix2 k q)) = _
  refine congrArg (V c main_v5 : S1024x1024.Idx → EReal) (funext fun a => Fin.ext ?_)
  match a with
  | ⟨0, _⟩ => show win2_1.index t (0 : Fin 2) * 1024 + 1 * k.val = k.val; omega
  | ⟨1, _⟩ => show win2_1.index t (1 : Fin 2) * 1024 + 1 * q.val = q.val; omega

/-- The bias row's block at any point is the whole bias row. -/
theorem bias_at (c : Dev nD) (t : Fin cfg2.N) (q : Fin 1024) :
    iblk2 V c 2 t (ix2 (0 : Fin 1) q) = (V c main_v17 : S1x1024.Idx → EReal) (ix2 (0 : Fin 1) q) := by
  obtain ⟨-, -, -, -, e0, e1, -⟩ := maps t
  show (V c main_v17 : S1x1024.Idx → EReal) (((cfg2.win 2).blk t).view.emb (ix2 (0 : Fin 1) q)) = _
  refine congrArg (V c main_v17 : S1x1024.Idx → EReal) (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 1024 + 1 * q.val = q.val; omega

/-- The result's block at point `t` sits at rows `1024·t …` of the array. -/
theorem out_at (t : Fin cfg2.N) (p q : Fin 1024) (r : Fin 8192) (hr : r.val = t.val * 1024 + p.val) :
    ((cfg2.win 3).blk t).view.emb (ix2 p q) = (ix2 r q : S8192x1024.Idx) := by
  obtain ⟨-, -, -, -, -, -, e0, e1⟩ := maps t
  refine funext fun a => Fin.ext ?_
  match a with
  | ⟨0, _⟩ => show win2_3.index t (0 : Fin 2) * 1024 + 1 * p.val = r.val; omega
  | ⟨1, _⟩ => show win2_3.index t (1 : Fin 2) * 1024 + 1 * q.val = q.val; omega

/-- What point `t` writes back is block `t` of `dense` of the three arrays as the region finds them. -/
theorem flushed_eq (c : Dev nD) (t : Fin cfg2.N) :
    (dat2 (F := Ideal) V c).flushed 3 t
      = ((cfg2.win 3).blk t).view.read (Elt Ideal) (Cert.Spec.dense (V c main_v16) (V c main_v5) (V c main_v17)) := by
  show (cfg2.win 3).cut (grid2.coords t) ((dat2 V c).after 3 t) = _
  rw [after2_3]
  unfold out2_3
  rw [View.canon_unit_zero zero_offsets]
  simp only [View.ld_unit_zero (S := S1024x1024) zero_offsets, View.ld_unit_zero (S := S1x1024) zero_offsets]
  refine funext fun (j : S1024x1024.Idx) => ?_
  obtain ⟨p, q, rfl⟩ : ∃ (p q : Fin 1024), j = ix2 p q := ⟨j 0, j 1, eq_ix2 j⟩
  have ht := point_lt t
  have hr : t.val * 1024 + p.val < 8192 := by have := p.isLt; omega
  show k2_pay1 (F := Ideal) (iblk2 V c 0 t) (iblk2 V c 1 t) (iblk2 V c 2 t) (ix2 p q)
      = Cert.Spec.dense (V c main_v16) (V c main_v5) (V c main_v17) (((cfg2.win 3).blk t).view.emb (ix2 p q))
  rw [out_at t p q ⟨t.val * 1024 + p.val, hr⟩ rfl]
  refine (pay2_apply _ _ _ p q).trans ?_
  exact dense_block (V c main_v16) (V c main_v5) (V c main_v17) _ _ _ ⟨t.val * 1024 + p.val, hr⟩ p q
    (fun k => rows_at V c t p k ⟨t.val * 1024 + p.val, hr⟩ rfl) (fun k => weights_at V c t k q) (bias_at V c t q)

/-- An index of the array is in point `t`'s block iff each coordinate is in the block's range on its axis. -/
theorem mem_block (t : Fin cfg2.N) (i : S8192x1024.Idx) :
    i ∈ ((cfg2.win 3).blk t).view.set
      ↔ ∀ a : Fin 2, win2_3.index t a * S1024x1024.size a ≤ (i a).val ∧ (i a).val < win2_3.index t a * S1024x1024.size a + S1024x1024.size a := by
  show i ∈ ((View.whole main_v18).slice (win2_3.rect t)).set ↔ _
  rw [View.set_slice_whole, Rect.mem_set_unit]
  exact Iff.rfl

/-- Row `r` is in the block of point `r / 1024`: the eight blocks cover the array. -/
theorem covered (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  refine ⟨⟨(i 0).val / 1024, by rw [hN]; omega⟩, flush2_3 _, ?_⟩
  rw [mem_block]
  obtain ⟨-, -, -, -, -, -, e0, e1⟩ := maps ⟨(i 0).val / 1024, by rw [hN]; omega⟩
  intro a
  match a with
  | ⟨0, _⟩ =>
    show win2_3.index _ (0 : Fin 2) * 1024 ≤ (i 0).val ∧ (i 0).val < win2_3.index _ (0 : Fin 2) * 1024 + 1024
    rw [e0]; show (i 0).val / 1024 * 1024 ≤ (i 0).val ∧ (i 0).val < (i 0).val / 1024 * 1024 + 1024; omega
  | ⟨1, _⟩ =>
    show win2_3.index _ (1 : Fin 2) * 1024 ≤ (i 1).val ∧ (i 1).val < win2_3.index _ (1 : Fin 2) * 1024 + 1024
    rw [e1]; omega

/-- The result array after the region: `dense` of the row matrix, the weight matrix and the bias row as the region
    finds them. -/
theorem region2_out (c : Dev nD) :
    (dat2 (F := Ideal) V c).arrAt 3 cfg2.N = Cert.Spec.dense (V c main_v16) (V c main_v5) (V c main_v17) :=
  (dat2 (F := Ideal) V c).arrAt_eq_of_cover 3 (Cert.Spec.dense (V c main_v16) (V c main_v5) (V c main_v17))
    (fun t _ => flushed_eq V c t) covered

end Cert.Dense.R2

end
-- ==== Proof.DenseR4.lean ====
/-
  The output projection: from the blocks of rows the grid writes back to the whole array.

  Grid point `t` of eight reads rows `1024·t … 1024·t + 1023` of the row matrix, the whole weight matrix and the
  whole bias row, and writes back the same rows of the result.  Each block written back is the restriction to
  those rows of one function of the three arrays, `dense`: entry `(r, e)` is `∑ k, X[r, k] · W[k, e] + B[0, e]`.
  Row `r` lies in the block of point `r / 1024`, so the eight blocks cover the array and it ends holding `dense`.
-/
import proofs.«146961_j83382495084952_2_alg».proof.Proof.Gen.KernelIdeal.Frame
import proofs.«146961_j83382495084952_2_alg».proof.Proof.Spec
import proofs.«146961_j83382495084952_2_alg».proof.Proof.DensePay
import Idealize.ShloMosaic.Lib.Pipeline.Value

noncomputable section

namespace Cert.Dense.R4

open Cert.Dense Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stores' offsets are zero on both axes. -/
theorem zero_offsets : (![0, 0] : Fin 2 → Nat) = fun _ => 0 := funext fun a => by fin_cases a <;> rfl

/-- The index maps over the eight points: the rows' and the result's block index is `(t, 0)`, the weights' and
    the bias row's is `(0, 0)`. -/
theorem maps : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- A grid point is below eight. -/
theorem point_lt (t : Fin cfg4.N) : t.val < 8 := by
  exact Nat.lt_of_lt_of_eq t.isLt N_4

/-- The rows' block at point `t`, at `(p, k)`: row `1024·t + p` of the row matrix. -/
theorem rows_at (c : Dev nD) (t : Fin cfg4.N) (p k : Fin 1024) (r : Fin 8192) (hr : r.val = t.val * 1024 + p.val) :
    iblk4 V c 0 t (ix2 p k) = (V c main_v21 : S8192x1024.Idx → EReal) (ix2 r k) := by
  obtain ⟨e0, e1, -⟩ := maps t
  show (V c main_v21 : S8192x1024.Idx → EReal) (((cfg4.win 0).blk t).view.emb (ix2 p k)) = _
  refine congrArg (V c main_v21 : S8192x1024.Idx → EReal) (funext fun a => Fin.ext ?_)
  match a with
  | ⟨0, _⟩ => show win4_0.index t (0 : Fin 2) * 1024 + 1 * p.val = r.val; omega
  | ⟨1, _⟩ => show win4_0.index t (1 : Fin 2) * 1024 + 1 * k.val = k.val; omega

/-- The weights' block at any point is the whole weight matrix. -/
theorem weights_at (c : Dev nD) (t : Fin cfg4.N) (k q : Fin 1024) :
    iblk4 V c 1 t (ix2 k q) = (V c main_v7 : S1024x1024.Idx → EReal) (ix2 k q) := by
  obtain ⟨-, -, e0, e1, -⟩ := maps t
  show (V c main_v7 : S1024x1024.Idx → EReal) (((cfg4.win 1).blk t).view.emb (ix2 k q)) = _
  refine congrArg (V c main_v7 : S1024x1024.Idx → EReal) (funext fun a => Fin.ext ?_)
  match a with
  | ⟨0, _⟩ => show win4_1.index t (0 : Fin 2) * 1024 + 1 * k.val = k.val; omega
  | ⟨1, _⟩ => show win4_1.index t (1 : Fin 2) * 1024 + 1 * q.val = q.val; omega

/-- The bias row's block at any point is the whole bias row. -/
theorem bias_at (c : Dev nD) (t : Fin cfg4.N) (q : Fin 1024) :
    iblk4 V c 2 t (ix2 (0 : Fin 1) q) = (V c main_v22 : S1x1024.Idx → EReal) (ix2 (0 : Fin 1) q) := by
  obtain ⟨-, -, -, -, e0, e1, -⟩ := maps t
  show (V c main_v22 : S1x1024.Idx → EReal) (((cfg4.win 2).blk t).view.emb (ix2 (0 : Fin 1) q)) = _
  refine congrArg (V c main_v22 : S1x1024.Idx → EReal) (funext fun a => Fin.ext ?_)
  match a with
  | ⟨0, _⟩ => show win4_2.index t (0 : Fin 2) * 1 + 1 * (0 : Fin 1).val = (0 : Fin 1).val; omega
  | ⟨1, _⟩ => show win4_2.index t (1 : Fin 2) * 1024 + 1 * q.val = q.val; omega

/-- The result's block at point `t` sits at rows `1024·t …` of the array. -/
theorem out_at (t : Fin cfg4.N) (p q : Fin 1024) (r : Fin 8192) (hr : r.val = t.val * 1024 + p.val) :
    ((cfg4.win 3).blk t).view.emb (ix2 p q) = (ix2 r q : S8192x1024.Idx) := by
  obtain ⟨-, -, -, -, -, -, e0, e1⟩ := maps t
  refine funext fun a => Fin.ext ?_
  match a with
  | ⟨0, _⟩ => show win4_3.index t (0 : Fin 2) * 1024 + 1 * p.val = r.val; omega
  | ⟨1, _⟩ => show win4_3.index t (1 : Fin 2) * 1024 + 1 * q.val = q.val; omega

/-- What point `t` writes back is block `t` of `dense` of the three arrays as the region finds them. -/
theorem flushed_eq (c : Dev nD) (t : Fin cfg4.N) :
    (dat4 (F := Ideal) V c).flushed 3 t
      = ((cfg4.win 3).blk t).view.read (Elt Ideal) (Cert.Spec.dense (V c main_v21) (V c main_v7) (V c main_v22)) := by
  show (cfg4.win 3).cut (grid4.coords t) ((dat4 V c).after 3 t) = _
  rw [after4_3]
  unfold out4_3
  rw [View.canon_unit_zero zero_offsets]
  simp only [View.ld_unit_zero (S := S1024x1024) zero_offsets, View.ld_unit_zero (S := S1x1024) zero_offsets]
  refine funext fun (j : S1024x1024.Idx) => ?_
  obtain ⟨p, q, rfl⟩ : ∃ (p q : Fin 1024), j = ix2 p q := ⟨j 0, j 1, eq_ix2 j⟩
  have ht := point_lt t
  have hr : t.val * 1024 + p.val < 8192 := by have := p.isLt; omega
  show k4_pay1 (F := Ideal) (iblk4 V c 0 t) (iblk4 V c 1 t) (iblk4 V c 2 t) (ix2 p q)
      = Cert.Spec.dense (V c main_v21) (V c main_v7) (V c main_v22) (((cfg4.win 3).blk t).view.emb (ix2 p q))
  rw [out_at t p q ⟨t.val * 1024 + p.val, hr⟩ rfl]
  refine (pay4_apply _ _ _ p q).trans ?_
  exact dense_block (V c main_v21) (V c main_v7) (V c main_v22) _ _ _ ⟨t.val * 1024 + p.val, hr⟩ p q
    (fun k => rows_at V c t p k ⟨t.val * 1024 + p.val, hr⟩ rfl) (fun k => weights_at V c t k q) (bias_at V c t q)

/-- An index of the array is in point `t`'s block iff each coordinate is in the block's range on its axis. -/
theorem mem_block (t : Fin cfg4.N) (i : S8192x1024.Idx) :
    i ∈ ((cfg4.win 3).blk t).view.set
      ↔ ∀ a : Fin 2, win4_3.index t a * S1024x1024.size a ≤ (i a).val ∧ (i a).val < win4_3.index t a * S1024x1024.size a + S1024x1024.size a := by
  show i ∈ ((View.whole main_v23).slice (win4_3.rect t)).set ↔ _
  rw [View.set_slice_whole, Rect.mem_set_unit]
  exact Iff.rfl

/-- Row `r` is in the block of point `r / 1024`: the eight blocks cover the array. -/
theorem covered (i : S8192x1024.Idx) :
    ∃ t : Fin cfg4.N, (cfg4.win 3).flush t = true ∧ i ∈ ((cfg4.win 3).blk t).view.set := by
  have hi0 : (i 0).val < 8192 := (i 0).isLt
  have hi1 : (i 1).val < 1024 := (i 1).isLt
  have hN : cfg4.N = 8 := N_4
  refine ⟨⟨(i 0).val / 1024, by rw [hN]; omega⟩, flush4_3 _, ?_⟩
  rw [mem_block]
  obtain ⟨-, -, -, -, -, -, e0, e1⟩ := maps ⟨(i 0).val / 1024, by rw [hN]; omega⟩
  intro a
  match a with
  | ⟨0, _⟩ =>
    show win4_3.index _ (0 : Fin 2) * 1024 ≤ (i 0).val ∧ (i 0).val < win4_3.index _ (0 : Fin 2) * 1024 + 1024
    rw [e0]; show (i 0).val / 1024 * 1024 ≤ (i 0).val ∧ (i 0).val < (i 0).val / 1024 * 1024 + 1024; omega
  | ⟨1, _⟩ =>
    show win4_3.index _ (1 : Fin 2) * 1024 ≤ (i 1).val ∧ (i 1).val < win4_3.index _ (1 : Fin 2) * 1024 + 1024
    rw [e1]; omega

/-- The result array after the region: `dense` of the row matrix, the weight matrix and the bias row as the region
    finds them. -/
theorem region4_out (c : Dev nD) :
    (dat4 (F := Ideal) V c).arrAt 3 cfg4.N = Cert.Spec.dense (V c main_v21) (V c main_v7) (V c main_v22) :=
  (dat4 (F := Ideal) V c).arrAt_eq_of_cover 3 (Cert.Spec.dense (V c main_v21) (V c main_v7) (V c main_v22))
    (fun t _ => flushed_eq V c t) covered

end Cert.Dense.R4

end
-- ==== Proof.Dense.lean ====
/-
  The four linear layers of the attention block, side by side: after each of their regions the result array
  holds `dense` of the row matrix, the weight matrix and the bias row as the region finds them, entry
  `(r, e)` being `∑ k, X[r, k] · W[k, e] + B[0, e]`.
-/
import proofs.«146961_j83382495084952_2_alg».proof.Proof.DenseR0
import proofs.«146961_j83382495084952_2_alg».proof.Proof.DenseR1
import proofs.«146961_j83382495084952_2_alg».proof.Proof.DenseR2
import proofs.«146961_j83382495084952_2_alg».proof.Proof.DenseR4

noncomputable section

namespace Cert.Dense

open Cert.KernelIdeal Cert.KernelIdeal.Gen Idealize.ShloMosaic Idealize.ShloMosaic.TcCoe Idealize.SL.Sem

/-- The first projection's result. -/
theorem region0_out (V : (c : Dev nD) → (b : Ref sig .tc) → Buf (Elt Ideal) ((c : Thread nD τ).loc b)) (c : Dev nD) :
    (dat0 (F := Ideal) V c).arrAt 3 cfg0.N = Cert.Spec.dense (V c main_v8) (V c main_v1) (V c main_v9) :=
  R0.region0_out V c

/-- The second projection's result. -/
theorem region1_out (V : (c : Dev nD) → (b : Ref sig .tc) → Buf (Elt Ideal) ((c : Thread nD τ).loc b)) (c : Dev nD) :
    (dat1 (F := Ideal) V c).arrAt 3 cfg1.N = Cert.Spec.dense (V c main_v12) (V c main_v3) (V c main_v13) :=
  R1.region1_out V c

/-- The third projection's result. -/
theorem region2_out (V : (c : Dev nD) → (b : Ref sig .tc) → Buf (Elt Ideal) ((c : Thread nD τ).loc b)) (c : Dev nD) :
    (dat2 (F := Ideal) V c).arrAt 3 cfg2.N = Cert.Spec.dense (V c main_v16) (V c main_v5) (V c main_v17) :=
  R2.region2_out V c

/-- The output projection's result. -/
theorem region4_out (V : (c : Dev nD) → (b : Ref sig .tc) → Buf (Elt Ideal) ((c : Thread nD τ).loc b)) (c : Dev nD) :
    (dat4 (F := Ideal) V c).arrAt 3 cfg4.N = Cert.Spec.dense (V c main_v21) (V c main_v7) (V c main_v22) :=
  R4.region4_out V c

end Cert.Dense

end
-- ==== Proof.AttnHead.lean ====
/-
  One attention head on the extended reals, read at an index.

  For a query tile q of 512 rows, keys k and values v of 2048 rows, all of 64 columns: the logits
  L[s, t] = (∑ j, q[s, j] * k[t, j]) * (1/8); the weights P[s, t] = exp (L[s, t] - M s) / ∑ u, exp (L[s, u] - M s)
  with M s the maximum of row s folded from the float pattern of -∞; the result O[s, d] = ∑ t, P[s, t] * v[t, d].
  The head is cut into four stages (scaled logits, exponentials, quotient, product with the values), each read at
  an index by coordinates; the payload of one head is their composition.
-/
import proofs.«146961_j83382495084952_2_alg».proof.Proof.Gen.KernelIdeal.Skeleton
import proofs.«146961_j83382495084952_2_alg».proof.Proof.Spec
import proofs.«146961_j83382495084952_2_alg».proof.Proof.LibLayout

noncomputable section

namespace Cert.Attn

open Idealize.ShloMosaic Idealize.ShloMosaic.ValueIdx Cert.KernelIdeal Cert.KernelIdeal.Gen Cert.LibLayout

/-! ## The four stages -/

/-- The scaled logits: q times k transposed, times one eighth. -/
def scaled (q : FVec Ideal S512x64 .bf16) (k : FVec Ideal S2048x64 .bf16) : FVec Ideal S512x2048 .f32 :=
  mulf (matmul dot_S512x64_S2048x64_S512x2048_1_1_0_0_n_n none q k (constant S512x2048 .f32 0x00000000#32))
    (broadcast S512x2048 (Scalar.ofBits .f32 0x3E000000#32))

/-- Each row's maximum, folded from the pattern of -∞, repeated along the row. -/
def rowMaxCol (L : FVec Ideal S512x2048 .f32) : FVec Ideal S512x2048 .f32 :=
  broadcastTo S512x2048
    (shapeCast S512x1 (multiReduction .maximumf [1] S512 L 0xFF800000#32 reduces_S512x2048_S512 (.inl rfl) rfl) shapeCasts_S512_S512x1)
    broadcasts_S512x1_S512x2048

/-- The exponentials of a matrix's entries less their row's maximum. -/
def expRows (L : FVec Ideal S512x2048 .f32) : FVec Ideal S512x2048 .f32 :=
  exp (subf L (rowMaxCol L))

/-- Each row's sum, repeated along the row. -/
def rowSumCol (E : FVec Ideal S512x2048 .f32) : FVec Ideal S512x2048 .f32 :=
  broadcastTo S512x2048
    (shapeCast S512x1 (multiReduction .add [1] S512 E 0x00000000#32 reduces_S512x2048_S512 (.inl rfl) rfl) shapeCasts_S512_S512x1)
    broadcasts_S512x1_S512x2048

/-- A matrix's entries over their row's sum. -/
def overRowSum (E : FVec Ideal S512x2048 .f32) : FVec Ideal S512x2048 .bf16 :=
  truncf .bf16 (divf E (rowSumCol E)) bitsLt_bf16_f32

/-- The weights times the values, laid as a block with a leading unit axis. -/
def timesValues (P : FVec Ideal S512x2048 .bf16) (v : FVec Ideal S2048x64 .bf16) : FVec Ideal S1x512x64 .bf16 :=
  shapeCast S1x512x64
    (truncf .bf16 (matmul dot_S512x2048_S2048x64_S512x64_1_0_0_1_n_n none P v (constant S512x64 .f32 0x00000000#32)) bitsLt_bf16_f32)
    shapeCasts_S512x64_S1x512x64

/-- One head's payload is the composition of the four stages on its three slices with the unit axis dropped. -/
theorem pay_eq_stages (q : Vec Ideal S1x512x64 .bf16) (k v : Vec Ideal S1x2048x64 .bf16) :
    k3_pay2 (F := Ideal) q k v
      = timesValues (overRowSum (expRows (scaled (shapeCast S512x64 q shapeCasts_S1x512x64_S512x64)
          (shapeCast S2048x64 k shapeCasts_S1x2048x64_S2048x64))))
          (shapeCast S2048x64 v shapeCasts_S1x2048x64_S2048x64) := rfl

/-! ## Each stage at an index -/

theorem scaled_apply (q : FVec Ideal S512x64 .bf16) (k : FVec Ideal S2048x64 .bf16) (s : Fin 512) (t : Fin 2048) :
    scaled q k (ix2 s t) = (∑ j : Fin 64, q (ix2 s j) * k (ix2 t j)) * Cert.Spec.scale :=
  congrArg (· * Cert.Spec.scale)
    (matmul_rows_rows_apply dot_S512x64_S2048x64_S512x2048_1_1_0_0_n_n rfl rfl rfl rfl
      (fun j c => by
        unfold DotDims.lhsIdx
        rw [dif_neg (show ¬(0 : Fin S512x64.rank) ∈ dot_S512x64_S2048x64_S512x2048_1_1_0_0_n_n.lhsBatch by decide),
          dif_pos (show (0 : Fin S512x64.rank) ∈ dot_S512x64_S2048x64_S512x2048_1_1_0_0_n_n.lhsNonContracting by decide)]
        rfl)
      (fun j c => by
        unfold DotDims.rhsIdx
        rw [dif_neg (show ¬(0 : Fin S2048x64.rank) ∈ dot_S512x64_S2048x64_S512x2048_1_1_0_0_n_n.rhsBatch by decide),
          dif_pos (show (0 : Fin S2048x64.rank) ∈ dot_S512x64_S2048x64_S512x2048_1_1_0_0_n_n.rhsNonContracting by decide)]
        rfl)
      none q k s t)

theorem rowMaxCol_apply (L : FVec Ideal S512x2048 .f32) (s : Fin 512) (t : Fin 2048) :
    rowMaxCol L (ix2 s t) = Cert.Spec.rowMax fun u => L (ix2 s u) :=
  (broadcastTo_a1_ab_apply _ broadcasts_S512x1_S512x2048 s t).trans
    ((shapeCast_a_a1_apply _ shapeCasts_S512_S512x1 s 0).trans
      (max_rows_apply L reduces_S512x2048_S512 (.inl rfl) rfl s))

theorem expRows_apply (L : FVec Ideal S512x2048 .f32) (s : Fin 512) (t : Fin 2048) :
    expRows L (ix2 s t) = Ideal.exp (L (ix2 s t) - Cert.Spec.rowMax fun u => L (ix2 s u)) :=
  congrArg (fun m => Ideal.exp (L (ix2 s t) - m)) (rowMaxCol_apply L s t)

theorem rowSumCol_apply (E : FVec Ideal S512x2048 .f32) (s : Fin 512) (t : Fin 2048) :
    rowSumCol E (ix2 s t) = ∑ u : Fin 2048, E (ix2 s u) :=
  (broadcastTo_a1_ab_apply _ broadcasts_S512x1_S512x2048 s t).trans
    ((shapeCast_a_a1_apply _ shapeCasts_S512_S512x1 s 0).trans
      (sum_rows_apply E reduces_S512x2048_S512 (.inl rfl) rfl s))

theorem overRowSum_apply (E : FVec Ideal S512x2048 .f32) (s : Fin 512) (t : Fin 2048) :
    overRowSum E (ix2 s t) = Ideal.div (E (ix2 s t)) (∑ u : Fin 2048, E (ix2 s u)) :=
  congrArg (fun m => Ideal.div (E (ix2 s t)) m) (rowSumCol_apply E s t)

theorem timesValues_apply (P : FVec Ideal S512x2048 .bf16) (v : FVec Ideal S2048x64 .bf16) (s : Fin 512) (d : Fin 64) :
    timesValues P v (ix3 (0 : Fin 1) s d) = ∑ t : Fin 2048, P (ix2 s t) * v (ix2 t d) :=
  (shapeCast_ab_1ab_apply _ shapeCasts_S512x64_S1x512x64 (0 : Fin 1) s d).trans
    (matmul_rows_cols_apply dot_S512x2048_S2048x64_S512x64_1_0_0_1_n_n rfl rfl rfl rfl
      (fun j c => by
        unfold DotDims.lhsIdx
        rw [dif_neg (show ¬(0 : Fin S512x2048.rank) ∈ dot_S512x2048_S2048x64_S512x64_1_0_0_1_n_n.lhsBatch by decide),
          dif_pos (show (0 : Fin S512x2048.rank) ∈ dot_S512x2048_S2048x64_S512x64_1_0_0_1_n_n.lhsNonContracting by decide)]
        rfl)
      (fun j c => by
        unfold DotDims.rhsIdx
        rw [dif_neg (show ¬(1 : Fin S2048x64.rank) ∈ dot_S512x2048_S2048x64_S512x64_1_0_0_1_n_n.rhsBatch by decide),
          dif_pos (show (1 : Fin S2048x64.rank) ∈ dot_S512x2048_S2048x64_S512x64_1_0_0_1_n_n.rhsNonContracting by decide)]
        rfl)
      none P v s d)

/-! ## The head at an index -/

/-- The weights are the softmax of the row of scaled logits. -/
theorem weights_apply (q : FVec Ideal S512x64 .bf16) (k : FVec Ideal S2048x64 .bf16) (s : Fin 512) (t : Fin 2048) :
    overRowSum (expRows (scaled q k)) (ix2 s t)
      = Cert.Spec.softmaxRow (fun u => (∑ j : Fin 64, q (ix2 s j) * k (ix2 u j)) * Cert.Spec.scale) t := by
  unfold Cert.Spec.softmaxRow
  simp only [overRowSum_apply, expRows_apply, scaled_apply]

/-- One head at row s and column d: the softmax weights of row s against column d of the values. -/
theorem head_apply (q : Vec Ideal S1x512x64 .bf16) (k v : Vec Ideal S1x2048x64 .bf16) (s : Fin 512) (d : Fin 64) :
    k3_pay2 (F := Ideal) q k v (ix3 (0 : Fin 1) s d)
      = ∑ t : Fin 2048, Cert.Spec.softmaxRow
          (fun u => (∑ j : Fin 64, q (ix3 (0 : Fin 1) s j) * k (ix3 (0 : Fin 1) u j)) * Cert.Spec.scale) t
          * v (ix3 (0 : Fin 1) t d) := by
  refine (congrFun (pay_eq_stages q k v) _).trans ?_
  refine (timesValues_apply _ _ s d).trans (Finset.sum_congr rfl fun t _ => ?_)
  rw [weights_apply]
  simp only [shapeCast_1ab_ab_apply]

end Cert.Attn

end
-- ==== Proof.AttnPieces.lean ====
/-
  The attention body's output block, read at an index.

  The body writes its block of 512 rows and 1024 columns as sixteen column slices of 64, one per head; each slice is
  the payload of one head applied to the same column slice of the query block and of the key and value blocks.
  Read at row s and column c, the block holds the softmax weights of row s in head c / 64 against column c of the
  values.
-/
import proofs.«146961_j83382495084952_2_alg».proof.Proof.Gen.KernelIdeal.Frame
import proofs.«146961_j83382495084952_2_alg».proof.Proof.Spec
import proofs.«146961_j83382495084952_2_alg».proof.Proof.AttnHead

noncomputable section

namespace Cert.Attn

open Idealize.ShloMosaic Idealize.ShloMosaic.ValueIdx Cert.KernelIdeal Cert.KernelIdeal.Gen

/-! ## The sixteen heads are one function of their three slices -/

section
variable {F : FTy → Type} [FloatOps F]
theorem head1_eq (q : Vec F S1x512x64 .bf16) (k v : Vec F S1x2048x64 .bf16) :
    k3_pay6 (k3_pay3 q) (k3_pay4 k) (k3_pay5 v) (constant S512x2048 .f32 0x00000000#32) = k3_pay2 q k v := rfl
theorem head2_eq (q : Vec F S1x512x64 .bf16) (k v : Vec F S1x2048x64 .bf16) :
    k3_pay8 (k3_pay7 q k v) = k3_pay2 q k v := rfl
theorem head3_eq (q : Vec F S1x512x64 .bf16) (k v : Vec F S1x2048x64 .bf16) :
    k3_pay9 q k v = k3_pay2 q k v := rfl
theorem head4_eq (q : Vec F S1x512x64 .bf16) (k v : Vec F S1x2048x64 .bf16) :
    k3_pay12 (k3_pay10 q) (k3_pay11 k) v = k3_pay2 q k v := rfl
theorem head5_eq (q : Vec F S1x512x64 .bf16) (k v : Vec F S1x2048x64 .bf16) :
    k3_pay16 (k3_pay13 v) (k3_pay14 q k) (k3_pay15 q k) = k3_pay2 q k v := rfl
theorem head6_eq (q : Vec F S1x512x64 .bf16) (k v : Vec F S1x2048x64 .bf16) :
    k3_pay17 q k v = k3_pay2 q k v := rfl
theorem head7_eq (q : Vec F S1x512x64 .bf16) (k v : Vec F S1x2048x64 .bf16) :
    k3_pay18 q k v = k3_pay2 q k v := rfl
theorem head8_eq (q : Vec F S1x512x64 .bf16) (k v : Vec F S1x2048x64 .bf16) :
    k3_pay22 (k3_pay19 v) (k3_pay20 q k) (k3_pay21 q k) = k3_pay2 q k v := rfl
theorem head9_eq (q : Vec F S1x512x64 .bf16) (k v : Vec F S1x2048x64 .bf16) :
    k3_pay24 (k3_pay23 q k v) = k3_pay2 q k v := rfl
theorem head10_eq (q : Vec F S1x512x64 .bf16) (k v : Vec F S1x2048x64 .bf16) :
    k3_pay25 q k v = k3_pay2 q k v := rfl
theorem head11_eq (q : Vec F S1x512x64 .bf16) (k v : Vec F S1x2048x64 .bf16) :
    k3_pay29 (k3_pay26 q) (k3_pay27 k) (k3_pay28 v) (constant S512x2048 .f32 0x00000000#32) = k3_pay2 q k v := rfl
theorem head12_eq (q : Vec F S1x512x64 .bf16) (k v : Vec F S1x2048x64 .bf16) :
    k3_pay31 (k3_pay30 q k v) = k3_pay2 q k v := rfl
theorem head13_eq (q : Vec F S1x512x64 .bf16) (k v : Vec F S1x2048x64 .bf16) :
    k3_pay32 q k v = k3_pay2 q k v := rfl
theorem head14_eq (q : Vec F S1x512x64 .bf16) (k v : Vec F S1x2048x64 .bf16) :
    k3_pay35 (k3_pay33 q) (k3_pay34 k) v = k3_pay2 q k v := rfl
theorem head15_eq (q : Vec F S1x512x64 .bf16) (k v : Vec F S1x2048x64 .bf16) :
    k3_pay1 (k3_pay36 v) (k3_pay37 q k) (k3_pay38 q k) = k3_pay2 q k v := rfl

end

/-! ## A column slice of a block read at an index -/

/-- A load through the rectangle of columns o .. o + 63 of a block with a leading unit axis reads, at row r and
    column j, the block at row r and column o + j. -/
theorem ld_cols {n : Nat} (o : Nat) (X : Vec Ideal ⟨3, ![1, n, 1024]⟩ .bf16)
    (inb : ∀ a, (![0, 0, o] : Fin 3 → Nat) a + (⟨3, ![1, n, 64]⟩ : Shape).size a ≤ (⟨3, ![1, n, 1024]⟩ : Shape).size a)
    (r : Fin n) (j : Fin 64) (c : Fin 1024) (hc : c.val = o + j.val) :
    View.ld X (Rect.unit (s := ⟨3, ![1, n, 1024]⟩) ![0, 0, o] (⟨3, ![1, n, 64]⟩ : Shape).size inb) (ix3 (0 : Fin 1) r j)
      = X (ix3 (0 : Fin 1) r c) :=
  congrArg X (funext fun a => Fin.ext (by
    match a with
    | ⟨0, _⟩ => show 0 + 1 * 0 = 0; rfl
    | ⟨1, _⟩ => show 0 + 1 * r.val = r.val; omega
    | ⟨2, _⟩ => show o + 1 * j.val = c.val; omega))

/-- The same rectangle's placement of row r and column j. -/
theorem emb_cols {n : Nat} (o : Nat)
    (inb : ∀ a, (![0, 0, o] : Fin 3 → Nat) a + (⟨3, ![1, n, 64]⟩ : Shape).size a ≤ (⟨3, ![1, n, 1024]⟩ : Shape).size a)
    (r : Fin n) (j : Fin 64) (c : Fin 1024) (hc : c.val = o + j.val) :
    (Rect.unit (s := ⟨3, ![1, n, 1024]⟩) ![0, 0, o] (⟨3, ![1, n, 64]⟩ : Shape).size inb).emb (ix3 (0 : Fin 1) r j)
      = ix3 (0 : Fin 1) r c :=
  funext fun a => Fin.ext (by
    match a with
    | ⟨0, _⟩ => show 0 + 1 * 0 = 0; rfl
    | ⟨1, _⟩ => show 0 + 1 * r.val = r.val; omega
    | ⟨2, _⟩ => show o + 1 * j.val = c.val; omega)

/-! ## The block as one function of its index -/

/-- One entry of attention inside a block: the softmax weights of query row s in the head of column c, against
    column c of the values. -/
def blockAttn (x0 : Vec Ideal S1x512x1024 .bf16) (x1 x2 : Vec Ideal S1x2048x1024 .bf16) (s : Fin 512) (c : Fin 1024) : EReal :=
  ∑ t : Fin 2048, Cert.Spec.softmaxRow
      (fun u => (∑ j : Fin 64, x0 (ix3 (0 : Fin 1) s (Cert.Spec.col (Cert.Spec.headOf c) j))
          * x1 (ix3 (0 : Fin 1) u (Cert.Spec.col (Cert.Spec.headOf c) j))) * Cert.Spec.scale) t
    * x2 (ix3 (0 : Fin 1) t c)

/-- The block of attention as a function of the block's index. -/
def blockOut (x0 : Vec Ideal S1x512x1024 .bf16) (x1 x2 : Vec Ideal S1x2048x1024 .bf16) : Vec Ideal S1x512x1024 .bf16 :=
  fun y => blockAttn x0 x1 x2 (y 1) (y 2)

/-- The head at columns o .. o + 63, o = 64 h, is the block of attention under its rectangle. -/
theorem piece_apply (o : Nat) (h : Fin 16) (ho : o = h.val * 64)
    (inbq : ∀ a, (![0, 0, o] : Fin 3 → Nat) a + S1x512x64.size a ≤ S1x512x1024.size a)
    (inbk : ∀ a, (![0, 0, o] : Fin 3 → Nat) a + S1x2048x64.size a ≤ S1x2048x1024.size a)
    (x0 : Vec Ideal S1x512x1024 .bf16) (x1 x2 : Vec Ideal S1x2048x1024 .bf16) (x : S1x512x64.Idx) :
    k3_pay2 (F := Ideal) (View.ld x0 (Rect.unit (s := S1x512x1024) ![0, 0, o] S1x512x64.size inbq))
        (View.ld x1 (Rect.unit (s := S1x2048x1024) ![0, 0, o] S1x2048x64.size inbk))
        (View.ld x2 (Rect.unit (s := S1x2048x1024) ![0, 0, o] S1x2048x64.size inbk)) x
      = blockOut x0 x1 x2 ((Rect.unit (s := S1x512x1024) ![0, 0, o] S1x512x64.size inbq).emb x) := by
  obtain ⟨u, s, d, rfl⟩ : ∃ (u : Fin 1) (s : Fin 512) (d : Fin 64), x = ix3 u s d := ⟨x 0, x 1, x 2, eq_ix3 x⟩
  obtain rfl : u = 0 := Subsingleton.elim _ _
  have hd : o + d.val < 1024 := by have := h.isLt; have := d.isLt; omega
  rw [emb_cols o inbq s d ⟨o + d.val, hd⟩ rfl]
  refine (head_apply _ _ _ s d).trans ?_
  show _ = blockAttn x0 x1 x2 s ⟨o + d.val, hd⟩
  unfold blockAttn
  have hh : Cert.Spec.headOf ⟨o + d.val, hd⟩ = h := Fin.ext (by
    show (o + d.val) / 64 = h.val
    have := d.isLt; omega)
  rw [hh]
  have hcol : ∀ j : Fin 64, (Cert.Spec.col h j).val = o + j.val := fun j => by
    show h.val * 64 + j.val = o + j.val; omega
  refine Finset.sum_congr rfl fun t _ => ?_
  rw [ld_cols o x2 inbk t d ⟨o + d.val, hd⟩ rfl]
  refine congrArg (fun L => Cert.Spec.softmaxRow L t * x2 (ix3 (0 : Fin 1) t ⟨o + d.val, hd⟩)) (funext fun u => ?_)
  refine congrArg (· * Cert.Spec.scale) (Finset.sum_congr rfl fun j _ => ?_)
  rw [ld_cols o x0 inbq s j (Cert.Spec.col h j) (hcol j), ld_cols o x1 inbk u j (Cert.Spec.col h j) (hcol j)]

/-- The body's output block is the block of attention of its three input blocks. -/
theorem out_eq (x0 : Vec Ideal S1x512x1024 .bf16) (x1 x2 : Vec Ideal S1x2048x1024 .bf16) :
    out3_3 (F := Ideal) x0 x1 x2 = blockOut x0 x1 x2 := by
  funext y
  unfold out3_3
  refine View.canon_apply_of_pieces (blockOut x0 x1 x2) _ ?_ y (cover3_3 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact (congrFun (head15_eq (F := Ideal) _ _ _) x).trans (piece_apply 960 ⟨15, by decide⟩ rfl _ _ x0 x1 x2 x)
  · exact (congrFun (head14_eq (F := Ideal) _ _ _) x).trans (piece_apply 896 ⟨14, by decide⟩ rfl _ _ x0 x1 x2 x)
  · exact (congrFun (head13_eq (F := Ideal) _ _ _) x).trans (piece_apply 832 ⟨13, by decide⟩ rfl _ _ x0 x1 x2 x)
  · exact (congrFun (head12_eq (F := Ideal) _ _ _) x).trans (piece_apply 768 ⟨12, by decide⟩ rfl _ _ x0 x1 x2 x)
  · exact (congrFun (head11_eq (F := Ideal) _ _ _) x).trans (piece_apply 704 ⟨11, by decide⟩ rfl _ _ x0 x1 x2 x)
  · exact (congrFun (head10_eq (F := Ideal) _ _ _) x).trans (piece_apply 640 ⟨10, by decide⟩ rfl _ _ x0 x1 x2 x)
  · exact (congrFun (head9_eq (F := Ideal) _ _ _) x).trans (piece_apply 576 ⟨9, by decide⟩ rfl _ _ x0 x1 x2 x)
  · exact (congrFun (head8_eq (F := Ideal) _ _ _) x).trans (piece_apply 512 ⟨8, by decide⟩ rfl _ _ x0 x1 x2 x)
  · exact (congrFun (head7_eq (F := Ideal) _ _ _) x).trans (piece_apply 448 ⟨7, by decide⟩ rfl _ _ x0 x1 x2 x)
  · exact (congrFun (head6_eq (F := Ideal) _ _ _) x).trans (piece_apply 384 ⟨6, by decide⟩ rfl _ _ x0 x1 x2 x)
  · exact (congrFun (head5_eq (F := Ideal) _ _ _) x).trans (piece_apply 320 ⟨5, by decide⟩ rfl _ _ x0 x1 x2 x)
  · exact (congrFun (head4_eq (F := Ideal) _ _ _) x).trans (piece_apply 256 ⟨4, by decide⟩ rfl _ _ x0 x1 x2 x)
  · exact (congrFun (head3_eq (F := Ideal) _ _ _) x).trans (piece_apply 192 ⟨3, by decide⟩ rfl _ _ x0 x1 x2 x)
  · exact (congrFun (head2_eq (F := Ideal) _ _ _) x).trans (piece_apply 128 ⟨2, by decide⟩ rfl _ _ x0 x1 x2 x)
  · exact (congrFun (head1_eq (F := Ideal) _ _ _) x).trans (piece_apply 64 ⟨1, by decide⟩ rfl _ _ x0 x1 x2 x)
  · exact (piece_apply 0 ⟨0, by decide⟩ rfl _ _ x0 x1 x2 x)

end Cert.Attn

end
-- ==== Proof.AttnRegion.lean ====
/-
  The attention region's output array.

  The region's grid is batch by query tile: point (b, i) reads the query block of batch b, rows 512 i .. 512 i + 511,
  and the whole key and value blocks of batch b, and writes the block of batch b and the same rows of the output.
  Each block written is the block of attention of the blocks read, which is the restriction of multi-head
  attention of the three whole arrays; the sixteen blocks cover the output, so the output array is multi-head
  attention of the arrays the region finds.
-/
import proofs.«146961_j83382495084952_2_alg».proof.Proof.Gen.KernelIdeal.Frame
import proofs.«146961_j83382495084952_2_alg».proof.Proof.Spec
import proofs.«146961_j83382495084952_2_alg».proof.Proof.AttnPieces
import Idealize.ShloMosaic.Lib.Pipeline.Value

noncomputable section

namespace Cert.Attn

open Idealize.ShloMosaic Idealize.ShloMosaic.ValueIdx Idealize.ShloMosaic.TcCoe Idealize.SL.Sem
open Cert.KernelIdeal Cert.KernelIdeal.Gen
open Idealize.ShloMosaic.Pipeline (Dat)

/-! ## A block of attention is the restriction of attention of the whole arrays -/

/-- If the three blocks are the arrays' rows of batch b (the queries' from row 512 i), the block of attention at row s
    and column c is attention of the arrays at batch b, row 512 i + s, column c. -/
theorem blockOut_eq (Q K W : Cert.Spec.Act) (X0 : Vec Ideal S1x512x1024 .bf16) (X1 X2 : Vec Ideal S1x2048x1024 .bf16)
    (b : Fin 4) (ti : Nat) (hti : ti ≤ 3)
    (h0 : ∀ (s : Fin 512) (c' : Fin 1024), X0 (ix3 (0 : Fin 1) s c') = Q (ix3 b (⟨ti * 512 + s.val, by omega⟩ : Fin 2048) c'))
    (h1 : ∀ (u : Fin 2048) (c' : Fin 1024), X1 (ix3 (0 : Fin 1) u c') = K (ix3 b u c'))
    (h2 : ∀ (u : Fin 2048) (c' : Fin 1024), X2 (ix3 (0 : Fin 1) u c') = W (ix3 b u c'))
    (y : S1x512x1024.Idx) (i : S4x2048x1024.Idx)
    (hi0 : (i 0).val = b.val) (hi1 : (i 1).val = ti * 512 + (y 1).val) (hi2 : (i 2).val = (y 2).val) :
    blockOut X0 X1 X2 y = Cert.Spec.attn Q K W i := by
  have hb : ∀ s : Fin 512, ti * 512 + s.val < 2048 := fun s => by omega
  obtain ⟨u, s, c', rfl⟩ : ∃ (u : Fin 1) (s : Fin 512) (c' : Fin 1024), y = ix3 u s c' := ⟨y 0, y 1, y 2, eq_ix3 y⟩
  obtain ⟨i0, i1, i2, rfl⟩ : ∃ (i0 : Fin 4) (i1 : Fin 2048) (i2 : Fin 1024), i = ix3 i0 i1 i2 := ⟨i 0, i 1, i 2, eq_ix3 i⟩
  obtain rfl : i0 = b := Fin.ext hi0
  obtain rfl : i1 = ⟨ti * 512 + s.val, hb s⟩ := Fin.ext hi1
  obtain rfl : i2 = c' := Fin.ext hi2
  show blockAttn X0 X1 X2 s i2 = Cert.Spec.attnAt Q K W i0 _ i2
  unfold blockAttn Cert.Spec.attnAt Cert.Spec.logit
  simp only [h0, h1, h2]

/-! ## The index maps over the grid -/

/-- The printed index maps, decided over the sixteen points: the query window moves with the output window, the key
    and value windows with its batch coordinate alone. -/
theorem idx_facts : ∀ t : Fin cfg3.N,
    win3_0.index t (0 : Fin 3) = win3_3.index t (0 : Fin 3) ∧ win3_0.index t (1 : Fin 3) = win3_3.index t (1 : Fin 3)
    ∧ win3_0.index t (2 : Fin 3) = 0
    ∧ win3_1.index t (0 : Fin 3) = win3_3.index t (0 : Fin 3) ∧ win3_1.index t (1 : Fin 3) = 0 ∧ win3_1.index t (2 : Fin 3) = 0
    ∧ win3_2.index t (0 : Fin 3) = win3_3.index t (0 : Fin 3) ∧ win3_2.index t (1 : Fin 3) = 0 ∧ win3_2.index t (2 : Fin 3) = 0
    ∧ win3_3.index t (0 : Fin 3) ≤ 3 ∧ win3_3.index t (1 : Fin 3) ≤ 3 ∧ win3_3.index t (2 : Fin 3) = 0 :=
  (by decide +kernel : ∀ t : Fin grid3.N, _)

/-- Every pair of a batch and a query tile is some point's. -/
theorem idx_onto : ∀ (q0 : Fin 4) (q1 : Fin 4), ∃ t : Fin cfg3.N, win3_3.index t = ![q0.val, q1.val, 0] :=
  (by decide +kernel : ∀ (q0 : Fin 4) (q1 : Fin 4), ∃ t : Fin grid3.N, win3_3.index t = ![q0.val, q1.val, 0])

variable (V : (c : Dev nD) → (b : Ref sig .tc) → Buf (Elt Ideal) ((c : Thread nD τ).loc b))

/-! ## What a point writes back -/

/-- Point t writes back block t of attention of the arrays the region finds. -/
theorem flushed_eq (c : Dev nD) (t : Fin cfg3.N) :
    (dat3 (F := Ideal) V c).flushed 3 t
      = ((cfg3.win 3).blk t).view.read (Elt Ideal) (Cert.Spec.attn (V c main_v11) (V c main_v15) (V c main_v19)) := by
  show (cfg3.win 3).cut (grid3.coords t) ((dat3 (F := Ideal) V c).after 3 t) = _
  rw [after3_3]
  obtain ⟨e00, e01, e02, e10, e11, e12, e20, e21, e22, b0, b1, b2⟩ := idx_facts t
  funext y
  show out3_3 (F := Ideal) (iblk3 V c 0 t) (iblk3 V c 1 t) (iblk3 V c 2 t) y
    = Cert.Spec.attn (V c main_v11) (V c main_v15) (V c main_v19) (((cfg3.win 3).blk t).view.emb y)
  refine (congrFun (out_eq (iblk3 V c 0 t) (iblk3 V c 1 t) (iblk3 V c 2 t)) y).trans ?_
  refine blockOut_eq (V c main_v11) (V c main_v15) (V c main_v19) _ _ _
    ⟨win3_3.index t (0 : Fin 3), by omega⟩ (win3_3.index t (1 : Fin 3)) b1 ?_ ?_ ?_ y _ ?_ ?_ ?_
  · intro s c'
    show V c main_v11 (((cfg3.win 0).blk t).view.emb (ix3 (0 : Fin 1) s c')) = _
    refine congrArg (V c main_v11) (funext fun a => Fin.ext ?_)
    match a with
    | ⟨0, _⟩ => show win3_0.index t (0 : Fin 3) * 1 + 1 * 0 = win3_3.index t (0 : Fin 3); omega
    | ⟨1, _⟩ => show win3_0.index t (1 : Fin 3) * 512 + 1 * s.val = win3_3.index t (1 : Fin 3) * 512 + s.val; omega
    | ⟨2, _⟩ => show win3_0.index t (2 : Fin 3) * 1024 + 1 * c'.val = c'.val; omega
  · intro u c'
    show V c main_v15 (((cfg3.win 1).blk t).view.emb (ix3 (0 : Fin 1) u c')) = _
    refine congrArg (V c main_v15) (funext fun a => Fin.ext ?_)
    match a with
    | ⟨0, _⟩ => show win3_1.index t (0 : Fin 3) * 1 + 1 * 0 = win3_3.index t (0 : Fin 3); omega
    | ⟨1, _⟩ => show win3_1.index t (1 : Fin 3) * 2048 + 1 * u.val = u.val; omega
    | ⟨2, _⟩ => show win3_1.index t (2 : Fin 3) * 1024 + 1 * c'.val = c'.val; omega
  · intro u c'
    show V c main_v19 (((cfg3.win 2).blk t).view.emb (ix3 (0 : Fin 1) u c')) = _
    refine congrArg (V c main_v19) (funext fun a => Fin.ext ?_)
    match a with
    | ⟨0, _⟩ => show win3_2.index t (0 : Fin 3) * 1 + 1 * 0 = win3_3.index t (0 : Fin 3); omega
    | ⟨1, _⟩ => show win3_2.index t (1 : Fin 3) * 2048 + 1 * u.val = u.val; omega
    | ⟨2, _⟩ => show win3_2.index t (2 : Fin 3) * 1024 + 1 * c'.val = c'.val; omega
  · show win3_3.index t (0 : Fin 3) * 1 + 1 * (y 0).val = win3_3.index t (0 : Fin 3)
    have hy : (y 0).val < 1 := (y 0).isLt
    omega
  · show win3_3.index t (1 : Fin 3) * 512 + 1 * (y 1).val = win3_3.index t (1 : Fin 3) * 512 + (y 1).val
    omega
  · show win3_3.index t (2 : Fin 3) * 1024 + 1 * (y 2).val = (y 2).val
    omega

/-! ## The blocks cover the output -/

/-- An index of the output is in point t's block iff each coordinate is in the block's range on its axis. -/
theorem mem_blk (t : Fin cfg3.N) (i : S4x2048x1024.Idx) :
    i ∈ ((cfg3.win 3).blk t).view.set ↔ ∀ a : Fin 3, win3_3.index t a * S1x512x1024.size a ≤ (i a).val
      ∧ (i a).val < win3_3.index t a * S1x512x1024.size a + S1x512x1024.size a := by
  show i ∈ ((View.whole main_v20).slice (win3_3.rect t)).set ↔ _
  rw [View.set_slice_whole, Rect.mem_set_unit]
  exact Iff.rfl

/-- Every index of the output is in the block of the point of its batch and of its row's tile. -/
theorem covered (i : S4x2048x1024.Idx) :
    ∃ t : Fin cfg3.N, (cfg3.win 3).flush t = true ∧ i ∈ ((cfg3.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win3_3.index t (0 : Fin 3) = (i 0).val := congrFun ht 0
  have q1 : win3_3.index t (1 : Fin 3) = (i 1).val / 512 := congrFun ht 1
  have q2 : win3_3.index t (2 : Fin 3) = 0 := congrFun ht 2
  refine ⟨t, flush3_3 t, ?_⟩
  rw [mem_blk]
  intro a
  match a with
  | ⟨0, _⟩ =>
    show win3_3.index t (0 : Fin 3) * 1 ≤ (i 0).val ∧ (i 0).val < win3_3.index t (0 : Fin 3) * 1 + 1
    omega
  | ⟨1, _⟩ =>
    show win3_3.index t (1 : Fin 3) * 512 ≤ (i 1).val ∧ (i 1).val < win3_3.index t (1 : Fin 3) * 512 + 512
    omega
  | ⟨2, _⟩ =>
    show win3_3.index t (2 : Fin 3) * 1024 ≤ (i 2).val ∧ (i 2).val < win3_3.index t (2 : Fin 3) * 1024 + 1024
    omega

/-! ## The output array -/

/-- After the region the output array is multi-head attention of the three arrays the region finds. -/
theorem region3_out (c : Dev nD) :
    (dat3 (F := Ideal) V c).arrAt 3 cfg3.N = Cert.Spec.attn (V c main_v11) (V c main_v15) (V c main_v19) :=
  (dat3 (F := Ideal) V c).arrAt_eq_of_cover 3 _ (fun t _ => flushed_eq V c t) covered

end Cert.Attn

end
-- ==== Proof.RefProj.lean ====
/-
  The reference's three input projections are the linear layer x · Wᵀ + b, entry by entry, and after the
  split of the last axis into sixteen heads of sixty-four columns and the exchange of the head and position
  axes, entry (b, h, s, d) is the layer's entry (b, s, 64·h + d).
-/
import proofs.«146961_j83382495084952_2_alg».proof.Proof.Gen.ReferenceIdeal.Read
import proofs.«146961_j83382495084952_2_alg».proof.Proof.Spec

noncomputable section

namespace Cert.RefValue

open Cert.ReferenceIdeal Cert.ReferenceIdeal.Read Idealize.ShloMosaic Idealize.ShloMosaic.ValueIdx

/-- The contraction reads the activations at (b, s, k). -/
theorem lidx_v0_ix (b : Fin 4) (s : Fin 2048) (e k : Fin 1024) : lidx_main_v0 (ix3 b s e) k = ix3 b s k :=
  funext fun a => by match a with | ⟨0, _⟩ => rfl | ⟨1, _⟩ => rfl | ⟨2, _⟩ => rfl

/-- The contraction reads the weights at (e, k). -/
theorem ridx_v0_ix (b : Fin 4) (s : Fin 2048) (e k : Fin 1024) : ridx_main_v0 (ix3 b s e) k = ix2 e k :=
  funext fun a => by match a with | ⟨0, _⟩ => rfl | ⟨1, _⟩ => rfl

/-- The bias is read at e. -/
theorem bias_v2_ix (b : Fin 4) (s : Fin 2048) (e : Fin 1024) : idx_main_v1 (idx_main_v2 (ix3 b s e)) = ix1 e :=
  funext fun a => by match a with | ⟨0, _⟩ => rfl

/-- One entry of the first projection. -/
theorem v3_at (x : Spec.Act) (W : Spec.Mat) (bias : Spec.Bias) (b : Fin 4) (s : Fin 2048) (e : Fin 1024) :
    val_main_v3 (F := Ideal) x W bias (ix3 b s e) = Spec.projAt x W bias b s e := by
  rw [val_main_v3_apply, val_main_v0_apply, val_main_v2_apply, val_main_v1_apply, bias_v2_ix]
  unfold Spec.projAt
  refine congrArg (· + bias (ix1 e)) ?_
  refine Finset.sum_congr rfl fun k _ => ?_
  rw [lidx_v0_ix, ridx_v0_ix]

/-- The first projection is the linear layer. -/
theorem v3_eq (x : Spec.Act) (W : Spec.Mat) (bias : Spec.Bias) : val_main_v3 (F := Ideal) x W bias = Spec.proj x W bias := by
  funext i
  obtain ⟨b, s, e, rfl⟩ : ∃ b s e, i = ix3 b s e := ⟨i 0, i 1, i 2, eq_ix3 i⟩
  exact v3_at x W bias b s e

/-- The second and third projections are the same operations on other arguments. -/
theorem v9_eq (x : Spec.Act) (W : Spec.Mat) (bias : Spec.Bias) : val_main_v9 (F := Ideal) x W bias = Spec.proj x W bias :=
  v3_eq x W bias

theorem v15_eq (x : Spec.Act) (W : Spec.Mat) (bias : Spec.Bias) : val_main_v15 (F := Ideal) x W bias = Spec.proj x W bias :=
  v3_eq x W bias

/-- Through the split of the last axis and the exchange of axes, entry (b, h, s, d) is read at (b, s, 64·h + d). -/
theorem heads_idx (b : Fin 4) (h : Fin 16) (s : Fin 2048) (d : Fin 64) :
    idx_main_v4 (idx_main_v5 (ix4 b h s d)) = ix3 b s (Spec.col h d) :=
  funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

/-- The first projection split into heads. -/
theorem v5_at (x : Spec.Act) (W : Spec.Mat) (bias : Spec.Bias) (b : Fin 4) (h : Fin 16) (s : Fin 2048) (d : Fin 64) :
    val_main_v5 (F := Ideal) x W bias (ix4 b h s d) = Spec.proj x W bias (ix3 b s (Spec.col h d)) := by
  rw [val_main_v5_apply, val_main_v4_apply, heads_idx, v3_eq]

/-- The second and third projections split into heads: the same operations on other arguments. -/
theorem v11_at (x : Spec.Act) (W : Spec.Mat) (bias : Spec.Bias) (b : Fin 4) (h : Fin 16) (s : Fin 2048) (d : Fin 64) :
    val_main_v11 (F := Ideal) x W bias (ix4 b h s d) = Spec.proj x W bias (ix3 b s (Spec.col h d)) :=
  v5_at x W bias b h s d

theorem v17_at (x : Spec.Act) (W : Spec.Mat) (bias : Spec.Bias) (b : Fin 4) (h : Fin 16) (s : Fin 2048) (d : Fin 64) :
    val_main_v17 (F := Ideal) x W bias (ix4 b h s d) = Spec.proj x W bias (ix3 b s (Spec.col h d)) :=
  v5_at x W bias b h s d

end Cert.RefValue

end
-- ==== Proof.RefScale.lean ====
/-
  The reference's logit scale, one over the square root of sixty-four computed on scalars, is the real one
  eighth, which is also what the float word 0x3E000000 denotes.
-/
import proofs.«146961_j83382495084952_2_alg».proof.Proof.Gen.ReferenceIdeal.Read
import proofs.«146961_j83382495084952_2_alg».proof.Proof.Spec
import Idealize.ShloMosaic.Lib.IdealHost

noncomputable section

namespace Cert.RefValue

open Cert.ReferenceIdeal Cert.ReferenceIdeal.Read Idealize.ShloMosaic Idealize.ShloMosaic.ValueIdx

/-- The float word 0x42800000 is the real sixty-four. -/
theorem ofBits_sixtyfour : Ideal.ofBits .f32 0x42800000#32 = ((64 : ℝ) : EReal) := by
  simp [Ideal.ofBits, Ideal.ieee, -EReal.coe_mul]; norm_num

/-- The float word 0x3E000000 is the real one eighth. -/
theorem ofBits_eighth : Ideal.ofBits .f32 0x3E000000#32 = (((1 : ℝ) / 8 : ℝ) : EReal) := by
  simp [Ideal.ofBits, Ideal.ieee, -EReal.coe_mul]; norm_num

/-- The square root of sixty-four is eight. -/
theorem sqrt_sixtyfour : Real.sqrt 64 = 8 := by
  rw [show (64 : ℝ) = 8 ^ 2 by norm_num]
  exact Real.sqrt_sq (by norm_num)

/-- The scale the reference computes is one eighth. -/
theorem v19_eq (i : S_.Idx) : val_main_v19 (F := Ideal) i = Spec.scale := by
  rw [val_main_v19_apply, val_main_cst_0_apply, val_main_v18_apply, val_main_cst_apply]
  simp only [Ideal.hostDivf_def, Ideal.hostUnary_sqrt_def, Ideal.ofBits_def]
  unfold Spec.scale
  rw [Ideal.ofBits_one_f32, ofBits_sixtyfour, ofBits_eighth, Ideal.sqrt_coe, if_neg (by norm_num), sqrt_sixtyfour,
    Ideal.div_coe (by norm_num), one_mul]

end Cert.RefValue

end
-- ==== Proof.RefSoftmax.lean ====
/-
  The reference's scaled logits, each row's maximum folded from −∞, and the softmax of a row, entry by entry:
  exp (L t − M) / ∑ u, exp (L u − M) with M the row's maximum.
-/
import proofs.«146961_j83382495084952_2_alg».proof.Proof.RefProj
import proofs.«146961_j83382495084952_2_alg».proof.Proof.RefScale

noncomputable section

namespace Cert.RefValue

open Cert.ReferenceIdeal Cert.ReferenceIdeal.Gen Cert.ReferenceIdeal.Read Idealize.ShloMosaic Idealize.ShloMosaic.ValueIdx

/-- The logits' contraction reads the queries at (b, h, s, k). -/
theorem lidx_v20_ix (b : Fin 4) (h : Fin 16) (s t : Fin 2048) (k : Fin 64) : lidx_main_v20 (ix4 b h s t) k = ix4 b h s k :=
  funext fun a => by match a with | ⟨0, _⟩ => rfl | ⟨1, _⟩ => rfl | ⟨2, _⟩ => rfl | ⟨3, _⟩ => rfl

/-- The logits' contraction reads the keys at (b, h, t, k). -/
theorem ridx_v20_ix (b : Fin 4) (h : Fin 16) (s t : Fin 2048) (k : Fin 64) : ridx_main_v20 (ix4 b h s t) k = ix4 b h t k :=
  funext fun a => by match a with | ⟨0, _⟩ => rfl | ⟨1, _⟩ => rfl | ⟨2, _⟩ => rfl | ⟨3, _⟩ => rfl

/-- A row statistic broadcast along the row is read at (b, h, s). -/
theorem row_idx_v27 (b : Fin 4) (h : Fin 16) (s t : Fin 2048) : idx_main_v26 (idx_main_v27 (ix4 b h s t)) = ix3 b h s :=
  funext fun a => by match a with | ⟨0, _⟩ => rfl | ⟨1, _⟩ => rfl | ⟨2, _⟩ => rfl

theorem row_idx_v32 (b : Fin 4) (h : Fin 16) (s t : Fin 2048) : idx_main_v31 (idx_main_v32 (ix4 b h s t)) = ix3 b h s :=
  funext fun a => by match a with | ⟨0, _⟩ => rfl | ⟨1, _⟩ => rfl | ⟨2, _⟩ => rfl

/-- The row sum runs over (b, h, s, k). -/
theorem idx_v30_ix (b : Fin 4) (h : Fin 16) (s k : Fin 2048) : idx_main_v30 (ix3 b h s) k = ix4 b h s k :=
  funext fun a => by match a with | ⟨0, _⟩ => rfl | ⟨1, _⟩ => rfl | ⟨2, _⟩ => rfl | ⟨3, _⟩ => rfl

/-- The float pattern of −∞ is the least extended real. -/
theorem negInf_max (y : EReal) : max Spec.negInf y = y := by
  unfold Spec.negInf
  simp [Ideal.ofBits, Ideal.ieee]

/-- Result index (b, h, s) of the reduction over the last axis, with coordinate k put back, is (b, h, s, k). -/
theorem lift_rows (hr : S4x16x2048x2048.Reduces [3] S4x16x2048) (b : Fin 4) (h : Fin 16) (s : Fin 2048)
    (k : Fin (S4x16x2048x2048.size 3)) : hr.lift (ix3 b h s) k = ix4 b h s (⟨k.val, k.isLt⟩ : Fin 2048) := by
  funext c; apply Fin.ext
  fin_cases c <;> rfl

/-- A reduce with a maximum body over the last axis, from the pattern of −∞, is at (b, h, s) the row's maximum. -/
theorem reduce_max_at (y : FVec Ideal S4x16x2048x2048 .f32) (b : Fin 4) (h : Fin 16) (s : Fin 2048) :
    Host.reduce FloatOps.maximumf y (val_main_cst_1 (F := Ideal)) reducesTo_S4x16x2048x2048_S4x16x2048_d3 h_S_ (ix3 b h s)
      = Spec.rowMax fun t => y (ix4 b h s t) := by
  have hr : S4x16x2048x2048.Reduces [3] S4x16x2048 := by decide
  rw [Host.reduce_eq_fold_single FloatOps.maximumf y _ reducesTo_S4x16x2048x2048_S4x16x2048_d3 hr h_S_]
  have hf : (y ∘ hr.lift (ix3 b h s)) = fun t : Fin 2048 => y (ix4 b h s t) :=
    funext fun k => congrArg y (lift_rows hr b h s k)
  exact congrArg (fun f => Finset.fold max (Ideal.ofBits .f32 0xFF800000#32) f (Finset.univ : Finset (Fin 2048))) hf

section
variable (x0 x1 : Spec.Act) (x3 : Spec.Mat) (x4 : Spec.Bias) (x5 : Spec.Mat) (x6 : Spec.Bias)

/-- The scaled logits. -/
theorem v22_at (b : Fin 4) (h : Fin 16) (s t : Fin 2048) :
    val_main_v22 (F := Ideal) x0 x1 x3 x4 x5 x6 (ix4 b h s t)
      = Spec.logit (Spec.proj x0 x3 x4) (Spec.proj x1 x5 x6) b h s t := by
  rw [val_main_v22_apply, val_main_v20_apply, val_main_v21_apply, v19_eq, Ideal.mulf_def]
  unfold Spec.logit
  refine congrArg (· * Spec.scale) ?_
  refine Finset.sum_congr rfl fun k _ => ?_
  rw [lidx_v20_ix, ridx_v20_ix, v5_at, v11_at]

/-- A row of the logits. -/
theorem v22_row (b : Fin 4) (h : Fin 16) (s : Fin 2048) :
    (fun t => val_main_v22 (F := Ideal) x0 x1 x3 x4 x5 x6 (ix4 b h s t))
      = Spec.logit (Spec.proj x0 x3 x4) (Spec.proj x1 x5 x6) b h s :=
  funext fun t => v22_at x0 x1 x3 x4 x5 x6 b h s t

/-- The row maxima. -/
theorem v23_at (b : Fin 4) (h : Fin 16) (s : Fin 2048) :
    val_main_v23 (F := Ideal) x0 x1 x3 x4 x5 x6 (ix3 b h s)
      = Spec.rowMax (Spec.logit (Spec.proj x0 x3 x4) (Spec.proj x1 x5 x6) b h s) := by
  unfold val_main_v23
  rw [reduce_max_at, v22_row]

/-- The maximum with −∞ changes nothing. -/
theorem v25_at (b : Fin 4) (h : Fin 16) (s : Fin 2048) :
    val_main_v25 (F := Ideal) x0 x1 x3 x4 x5 x6 (ix3 b h s)
      = Spec.rowMax (Spec.logit (Spec.proj x0 x3 x4) (Spec.proj x1 x5 x6) b h s) := by
  rw [val_main_v25_apply, val_main_v24_apply, val_main_cst_2_apply, v23_at, Ideal.maximumf_def, Ideal.ofBits_def]
  exact negInf_max _

/-- The exponentials of the shifted logits. -/
theorem v29_at (b : Fin 4) (h : Fin 16) (s t : Fin 2048) :
    val_main_v29 (F := Ideal) x0 x1 x3 x4 x5 x6 (ix4 b h s t)
      = Ideal.exp (Spec.logit (Spec.proj x0 x3 x4) (Spec.proj x1 x5 x6) b h s t
          - Spec.rowMax (Spec.logit (Spec.proj x0 x3 x4) (Spec.proj x1 x5 x6) b h s)) := by
  rw [val_main_v29_apply, val_main_v28_apply, val_main_v27_apply, val_main_v26_apply, row_idx_v27, v25_at, v22_at,
    Ideal.hostUnary_exp_def, Ideal.subf_def]

/-- The row sums of the exponentials. -/
theorem v30_at (b : Fin 4) (h : Fin 16) (s : Fin 2048) :
    val_main_v30 (F := Ideal) x0 x1 x3 x4 x5 x6 (ix3 b h s)
      = ∑ u : Fin 2048, Ideal.exp (Spec.logit (Spec.proj x0 x3 x4) (Spec.proj x1 x5 x6) b h s u
          - Spec.rowMax (Spec.logit (Spec.proj x0 x3 x4) (Spec.proj x1 x5 x6) b h s)) := by
  rw [val_main_v30_apply, val_main_cst_3_apply, Ideal.ofBits_def, Ideal.ofBits_zero_f32, zero_add]
  refine Finset.sum_congr rfl fun u _ => ?_
  rw [idx_v30_ix, v29_at]

/-- The softmax weights. -/
theorem v33_at (b : Fin 4) (h : Fin 16) (s t : Fin 2048) :
    val_main_v33 (F := Ideal) x0 x1 x3 x4 x5 x6 (ix4 b h s t)
      = Spec.softmaxRow (Spec.logit (Spec.proj x0 x3 x4) (Spec.proj x1 x5 x6) b h s) t := by
  rw [val_main_v33_apply, val_main_v32_apply, val_main_v31_apply, row_idx_v32, v30_at, v29_at, Ideal.hostDivf_def]
  rfl

end

end Cert.RefValue

end
-- ==== Proof.RefOut.lean ====
/-
  The reference's weighted sum of the values by the softmax weights, the heads laid back side by side along the
  last axis, is attention entry by entry; the last linear layer of it is the whole function.
-/
import proofs.«146961_j83382495084952_2_alg».proof.Proof.RefSoftmax

noncomputable section

namespace Cert.RefValue

open Cert.ReferenceIdeal Cert.ReferenceIdeal.Read Idealize.ShloMosaic Idealize.ShloMosaic.ValueIdx

/-- The weighted sum reads the softmax weights at (b, h, s, k). -/
theorem lidx_v34_ix (b : Fin 4) (h : Fin 16) (s : Fin 2048) (d : Fin 64) (k : Fin 2048) :
    lidx_main_v34 (ix4 b h s d) k = ix4 b h s k :=
  funext fun a => by match a with | ⟨0, _⟩ => rfl | ⟨1, _⟩ => rfl | ⟨2, _⟩ => rfl | ⟨3, _⟩ => rfl

/-- The weighted sum reads the values at (b, h, k, d). -/
theorem ridx_v34_ix (b : Fin 4) (h : Fin 16) (s : Fin 2048) (d : Fin 64) (k : Fin 2048) :
    ridx_main_v34 (ix4 b h s d) k = ix4 b h k d :=
  funext fun a => by match a with | ⟨0, _⟩ => rfl | ⟨1, _⟩ => rfl | ⟨2, _⟩ => rfl | ⟨3, _⟩ => rfl

/-- Through the exchange of axes and the merge of the last two, entry (b, s, c) is read at head c / 64, column c % 64. -/
theorem merge_idx (b : Fin 4) (s : Fin 2048) (c : Fin 1024) :
    idx_main_v35 (idx_main_v36 (ix3 b s c))
      = ix4 b (Spec.headOf c) s (⟨c.val % 64, Nat.mod_lt _ (by decide)⟩ : Fin 64) :=
  funext fun a => Fin.ext (by
    have hb := b.isLt; have hs := s.isLt; have hc := c.isLt
    match a with
    | ⟨0, _⟩ => show ((b.val * 2048 + s.val) * 1024 + c.val) / 2097152 = b.val; omega
    | ⟨1, _⟩ => show ((b.val * 2048 + s.val) * 1024 + c.val) / 64 % 16 = c.val / 64; omega
    | ⟨2, _⟩ => show ((b.val * 2048 + s.val) * 1024 + c.val) / 1024 % 2048 = s.val; omega
    | ⟨3, _⟩ => show ((b.val * 2048 + s.val) * 1024 + c.val) % 64 = c.val % 64; omega)

/-- A column is column c % 64 of head c / 64. -/
theorem col_headOf (c : Fin 1024) : Spec.col (Spec.headOf c) (⟨c.val % 64, Nat.mod_lt _ (by decide)⟩ : Fin 64) = c :=
  Fin.ext (by show c.val / 64 * 64 + c.val % 64 = c.val; omega)

section
variable (x0 x1 x2 : Spec.Act) (x3 : Spec.Mat) (x4 : Spec.Bias) (x5 : Spec.Mat) (x6 : Spec.Bias) (x7 : Spec.Mat) (x8 : Spec.Bias)

/-- The weighted sums, head by head. -/
theorem v34_at (b : Fin 4) (h : Fin 16) (s : Fin 2048) (d : Fin 64) :
    val_main_v34 (F := Ideal) x0 x1 x2 x3 x4 x5 x6 x7 x8 (ix4 b h s d)
      = ∑ t : Fin 2048, Spec.softmaxRow (Spec.logit (Spec.proj x0 x3 x4) (Spec.proj x1 x5 x6) b h s) t
          * Spec.proj x2 x7 x8 (ix3 b t (Spec.col h d)) := by
  rw [val_main_v34_apply]
  refine Finset.sum_congr rfl fun k _ => ?_
  rw [lidx_v34_ix, ridx_v34_ix, v33_at, v17_at]

/-- One entry of the heads laid side by side. -/
theorem v36_at (b : Fin 4) (s : Fin 2048) (c : Fin 1024) :
    val_main_v36 (F := Ideal) x0 x1 x2 x3 x4 x5 x6 x7 x8 (ix3 b s c)
      = Spec.attnAt (Spec.proj x0 x3 x4) (Spec.proj x1 x5 x6) (Spec.proj x2 x7 x8) b s c := by
  rw [val_main_v36_apply, val_main_v35_apply, merge_idx, v34_at, col_headOf]
  rfl

/-- The heads laid side by side are attention on the three projections. -/
theorem v36_eq :
    val_main_v36 (F := Ideal) x0 x1 x2 x3 x4 x5 x6 x7 x8
      = Spec.attn (Spec.proj x0 x3 x4) (Spec.proj x1 x5 x6) (Spec.proj x2 x7 x8) := by
  funext i
  obtain ⟨b, s, c, rfl⟩ : ∃ b s c, i = ix3 b s c := ⟨i 0, i 1, i 2, eq_ix3 i⟩
  exact v36_at x0 x1 x2 x3 x4 x5 x6 x7 x8 b s c

end

/-- The reference computes the whole layer: three projections, attention, the output projection. -/
theorem ref_out (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal)) :
    val_main_v40 (F := Ideal) x0 x1 x2 x3 x4 x5 x6 x7 x8 x9 x10 = Cert.Spec.out x0 x1 x2 x3 x4 x5 x6 x7 x8 x9 x10 := by
  have e : val_main_v40 (F := Ideal) x0 x1 x2 x3 x4 x5 x6 x7 x8 x9 x10
      = val_main_v3 (F := Ideal) (val_main_v36 (F := Ideal) x0 x1 x2 x3 x4 x5 x6 x7 x8) x9 x10 := rfl
  rw [e, v3_eq, v36_eq]
  rfl

end Cert.RefValue

end
-- ==== Proof.lean ====
/-
  Multi-head self-attention as five kernel launches against its array-level reference: the certificate's five claims.

  Both programs compute, on the extended reals, three linear projections `x · Wᵀ + b` of the queries, keys and values,
  scaled dot-product attention over sixteen heads of sixty-four columns — logits `(q · k) / 8`, a softmax taken as
  `exp (L - max L) / ∑ exp (L - max L)`, the weighted sum of the values, heads side by side — and a fourth projection
  of the result.  The kernel program tiles this: each projection is a launch over blocks of 1024 rows against a weight
  matrix the host transposed, attention a launch over (batch, 512 queries) that loops over the heads on column
  slices; the reference spells the head split by a reshape and a transpose and the scale as `1 / sqrt 64`.  Tiling,
  layout and the order of summation do not change an entry; `sqrt 64 = 8` and the kernel's scale word is `1 / 8`;
  narrowing a float format is the identity on the extended reals.  No step uses that the inputs are finite.

  The three frame claims are the two kernel programs' generated frames and the reference's run with its result
  dropped; the idealization rewrote no operation, so `preserves` is `True`; the algebraic claim is `Bridge.algebraic_of`
  applied to the five launches' outputs (`Dense.region0_out` … `region4_out`, `Attn.region3_out`) and the reference's
  composed term (`RefValue.ref_out`).
-/
import proofs.«146961_j83382495084952_2_alg».proof.Defs
import proofs.«146961_j83382495084952_2_alg».proof.Proof.Gen.Kernel
import proofs.«146961_j83382495084952_2_alg».proof.Proof.Gen.Kernel.Frame
import proofs.«146961_j83382495084952_2_alg».proof.Proof.Gen.KernelIdeal
import proofs.«146961_j83382495084952_2_alg».proof.Proof.Gen.KernelIdeal.Frame
import proofs.«146961_j83382495084952_2_alg».proof.Proof.Gen.ReferenceIdeal
import proofs.«146961_j83382495084952_2_alg».proof.Proof.Gen.ReferenceIdeal.Run
import proofs.«146961_j83382495084952_2_alg».proof.Proof.Gen.Pre_finite_inputs
import proofs.«146961_j83382495084952_2_alg».proof.Proof.Bridge
import proofs.«146961_j83382495084952_2_alg».proof.Proof.Dense
import proofs.«146961_j83382495084952_2_alg».proof.Proof.AttnRegion
import proofs.«146961_j83382495084952_2_alg».proof.Proof.RefOut
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From equal arguments the two idealized programs end with equal results: both are the whole attention layer. -/
theorem algebraic : Cert.algebraic_KernelIdeal_ReferenceIdeal :=
  Cert.Bridge.algebraic_of Cert.Dense.region0_out Cert.Dense.region1_out Cert.Dense.region2_out Cert.Attn.region3_out
    Cert.Dense.region4_out Cert.RefValue.ref_out

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
